-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S40x128 1) : IVec S_ 1 :=
  let main_c_5 : IVec S_ 1 := constantI S_ 1 1#1
  let main_v17 : IVec S_ 1 := (fun x v => Host.reduce IntOp.andi x v reducesTo_S40x128_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S40x128 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S40x128 .f32 := Host.absf main_arg4
  let main_cst_4 : FVec F S_ .f32 := constant S_ .f32 0x7F800000#32
  let main_v15 : FVec F S40x128 .f32 := broadcastInDim S40x128 ![] bcast_S_S40x128 main_cst_4
  let main_v16 : IVec S40x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x128 : Shape := ⟨2, ![850000, 128]⟩
abbrev S5000x128 : Shape := ⟨2, ![5000, 128]⟩
abbrev S5000x1 : Shape := ⟨2, ![5000, 1]⟩
abbrev S1x128 : Shape := ⟨2, ![1, 128]⟩
abbrev S128x40 : Shape := ⟨2, ![128, 40]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩

abbrev nBuf : Space → Nat
  | .hbm => 67
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S40x128, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000x128, .f32⟩
  | .hbm, ⟨39, _⟩ => ⟨S_, .f32⟩
  | .hbm, ⟨40, _⟩ => ⟨S50000x128, .f32⟩
  | .hbm, ⟨41, _⟩ => ⟨S850000x1, .i32⟩
  | .hbm, ⟨42, _⟩ => ⟨S50000x128, .f32⟩
  | .hbm, ⟨43, _⟩ => ⟨S128x128, .f32⟩
  | .hbm, ⟨44, _⟩ => ⟨S50000x128, .f32⟩
  | .hbm, ⟨45, _⟩ => ⟨S_, .f32⟩
  | .hbm, ⟨46, _⟩ => ⟨S40, .f32⟩
  | .hbm, ⟨47, _⟩ => ⟨S128x40, .f32⟩
  | .hbm, ⟨48, _⟩ => ⟨S50000x40, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x40, .f32⟩
  | .hbm, ⟨58, _⟩ => ⟨S_, .f32⟩
  | .hbm, ⟨59, _⟩ => ⟨S50000x40, .f32⟩
  | .hbm, ⟨60, _⟩ => ⟨S850000x1, .i32⟩
  | .hbm, ⟨61, _⟩ => ⟨S50000x40, .f32⟩
  | .hbm, ⟨62, _⟩ => ⟨S50000x40, .f32⟩
  | .hbm, ⟨63, _⟩ => ⟨S50000x40, .f32⟩
  | .hbm, ⟨64, _⟩ => ⟨S1x40, .f32⟩
  | .hbm, ⟨65, _⟩ => ⟨S50000x40, .f32⟩
  | .hbm, ⟨66, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x40, .f32⟩
  | .local _ .vmem, ⟨13, _⟩ => ⟨S40, .f32⟩
  | .local _ .vmem, ⟨14, _⟩ => ⟨S5000x40, .f32⟩
  | .local _ .vmem, ⟨15, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S40 : S_.BroadcastsInDim S40 (![] : Fin 0 → Fin S40.rank)
  transposes_S40x128_S128x40_1_0 : S40x128.Transposes [1, 0] S128x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40.size a ≤ S40.size a
  hwx1_3 : ∀ i : grid1.Coords, EltTy.bits .f32 = 32 ∨ (Rect.block (s := S40) S40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x40.size a ≤ S50000x40.size a
  hwx1_4 : ∀ i : grid1.Coords, EltTy.bits .f32 = 32 ∨ (Rect.block (s := S50000x40) S5000x40.size (cc1_transform_4 i) (hinb1_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S128x40 : Shape := ⟨2, ![128, 40]⟩
abbrev S50000x40 : Shape := ⟨2, ![50000, 40]⟩
abbrev S1x40 : Shape := ⟨2, ![1, 40]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S40x128, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x1, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S128x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x128, .f32⟩
  | .hbm, ⟨115, _⟩ => ⟨S850000x1, .f32⟩
  | .hbm, ⟨116, _⟩ => ⟨S850000x128, .f32⟩
  | .hbm, ⟨117, _⟩ => ⟨S850000x128, .f32⟩
  | .hbm, ⟨118, _⟩ => ⟨S_, .f32⟩
  | .hbm, ⟨119, _⟩ => ⟨S50000x128, .f32⟩
  | .hbm, ⟨120, _⟩ => ⟨S850000x1, .i32⟩
  | .hbm, ⟨121, _⟩ => ⟨S50000x128, .f32⟩
  | .hbm, ⟨122, _⟩ => ⟨S128x40, .f32⟩
  | .hbm, ⟨123, _⟩ => ⟨S50000x40, .f32⟩
  | .hbm, ⟨124, _⟩ => ⟨S1x40, .f32⟩
  | .hbm, ⟨125, _⟩ => ⟨S50000x40, .f32⟩
  | .hbm, ⟨126, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel's whole run, with EVERY buffer named at the end.

  The program is a line of host operations, a first tiled region, a short line of host operations, a second tiled region and
  a last line of host operations.  Its buffers' contents at each boundary are a fold from the launch memory: a line of host
  operations applies its operations in order, a region replaces its arrays by what its write-backs leave.  The statement
  here is that every weakly fair execution terminates, faultless, and that in the final memory every buffer that outlives
  the kernels holds the last fold's contents — in particular the result buffer and the six arguments.
-/
import proofs.«164676_j40578851012868_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every final memory has each buffer that outlives the
    kernels at the contents the fold through the program's segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run, read at the result and at the six arguments: the result holds the last fold's contents, each argument
    what it held at launch. -/
theorem run_result : θ_run defs (onTc (τ := τ) (main (F := F))) ⟨m, fun _ => 0, ρ⟩ (fun r => ∀ c : Dev nD,
      r.2.mem ((c.tc : Thread nD τ).loc main_v47) = W7 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v47 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

end Cert.KernelIdeal.WholeRun

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.Dense.lean ====
/-
  The two dense stages of the graph network, each as one function of whole arrays, index by index, for any number of rows.

  Stage one takes an [n, k] matrix A, an [n, 1] column d, a [k, b] matrix W and a length-b vector β: row p of A is scaled by
  d p, multiplied into W, β is added, and the result is clamped at zero.  Stage two takes A, d and W: row p of the product
  A·W is scaled by d p.  Both depend, at row p, only on row p of A and of d: a block of rows of the result is the same
  function of the same block of rows of the operands.
-/
import proofs.«164676_j40578851012868_2_alg».proof.Proof.LibRowMax
import proofs.«164676_j40578851012868_2_alg».proof.Proof.LibColumn

noncomputable section

namespace Cert.Sgc.Dense

open Idealize.ShloMosaic Idealize.ShloMosaic.ValueIdx

variable {n k b : ℕ}

/-- Rows scaled by the column, times the matrix, plus the bias, clamped at zero. -/
def scaledAffineClamp (A : (⟨2, ![n, k]⟩ : Shape).Idx → EReal) (d : (⟨2, ![n, 1]⟩ : Shape).Idx → EReal)
    (W : (⟨2, ![k, b]⟩ : Shape).Idx → EReal) (β : (⟨1, ![b]⟩ : Shape).Idx → EReal) : (⟨2, ![n, b]⟩ : Shape).Idx → EReal :=
  fun j => max (∑ e : Fin k, (A (ix2 (j 0) e) * d (ix2 (j 0) (0 : Fin 1))) * W (ix2 e (j 1)) + β (ix1 (j 1)))
    (Ideal.ofBits .f32 0x00000000#32)

/-- The product's rows scaled by the column. -/
def productScaled (A : (⟨2, ![n, k]⟩ : Shape).Idx → EReal) (d : (⟨2, ![n, 1]⟩ : Shape).Idx → EReal)
    (W : (⟨2, ![k, b]⟩ : Shape).Idx → EReal) : (⟨2, ![n, b]⟩ : Shape).Idx → EReal :=
  fun j => (∑ e : Fin k, A (ix2 (j 0) e) * W (ix2 e (j 1))) * d (ix2 (j 0) (0 : Fin 1))

theorem scaledAffineClamp_apply (A : (⟨2, ![n, k]⟩ : Shape).Idx → EReal) (d : (⟨2, ![n, 1]⟩ : Shape).Idx → EReal)
    (W : (⟨2, ![k, b]⟩ : Shape).Idx → EReal) (β : (⟨1, ![b]⟩ : Shape).Idx → EReal) (p : Fin n) (q : Fin b) :
    scaledAffineClamp A d W β (ix2 p q)
      = max (∑ e : Fin k, (A (ix2 p e) * d (ix2 p (0 : Fin 1))) * W (ix2 e q) + β (ix1 q)) (Ideal.ofBits .f32 0x00000000#32) := rfl

theorem productScaled_apply (A : (⟨2, ![n, k]⟩ : Shape).Idx → EReal) (d : (⟨2, ![n, 1]⟩ : Shape).Idx → EReal)
    (W : (⟨2, ![k, b]⟩ : Shape).Idx → EReal) (p : Fin n) (q : Fin b) :
    productScaled A d W (ix2 p q) = (∑ e : Fin k, A (ix2 p e) * W (ix2 e q)) * d (ix2 p (0 : Fin 1)) := rfl

variable {n' : ℕ}

/-- Stage one at row p of one set of operands is stage one at row p' of another whose row p' holds the same entries. -/
theorem scaledAffineClamp_rows (A : (⟨2, ![n, k]⟩ : Shape).Idx → EReal) (d : (⟨2, ![n, 1]⟩ : Shape).Idx → EReal)
    (A' : (⟨2, ![n', k]⟩ : Shape).Idx → EReal) (d' : (⟨2, ![n', 1]⟩ : Shape).Idx → EReal)
    (W : (⟨2, ![k, b]⟩ : Shape).Idx → EReal) (β : (⟨1, ![b]⟩ : Shape).Idx → EReal) (p : Fin n) (p' : Fin n') (q : Fin b)
    (hA : ∀ e : Fin k, A (ix2 p e) = A' (ix2 p' e)) (hd : d (ix2 p (0 : Fin 1)) = d' (ix2 p' (0 : Fin 1))) :
    scaledAffineClamp A d W β (ix2 p q) = scaledAffineClamp A' d' W β (ix2 p' q) := by
  rw [scaledAffineClamp_apply, scaledAffineClamp_apply, hd]
  simp only [hA]

/-- The same for stage two. -/
theorem productScaled_rows (A : (⟨2, ![n, k]⟩ : Shape).Idx → EReal) (d : (⟨2, ![n, 1]⟩ : Shape).Idx → EReal)
    (A' : (⟨2, ![n', k]⟩ : Shape).Idx → EReal) (d' : (⟨2, ![n', 1]⟩ : Shape).Idx → EReal)
    (W : (⟨2, ![k, b]⟩ : Shape).Idx → EReal) (p : Fin n) (p' : Fin n') (q : Fin b)
    (hA : ∀ e : Fin k, A (ix2 p e) = A' (ix2 p' e)) (hd : d (ix2 p (0 : Fin 1)) = d' (ix2 p' (0 : Fin 1))) :
    productScaled A d W (ix2 p q) = productScaled A' d' W (ix2 p' q) := by
  rw [productScaled_apply, productScaled_apply, hd]
  simp only [hA]

end Cert.Sgc.Dense

end
-- ==== Proof.KernelTerm.lean ====
/-
  The kernel program's result as ONE term of its six argument arrays, built stage by stage.

  The edges, the degrees and the weights are computed as in the reference.  The features are scaled by the weight of their
  own node BEFORE they are gathered; the gathered rows are summed at the destinations with no further factor; the first dense
  stage scales the sums by the destination's weight, multiplies by W1ᵀ, adds b1 and clamps at zero.  The second dense stage
  multiplies by W2ᵀ and scales by the node's weight; the result is gathered and summed at the destinations again — 40 columns
  wide now — scaled by the destination's weight, and b2 is added.
-/
import proofs.«164676_j40578851012868_2_alg».proof.KernelIdeal
import proofs.«164676_j40578851012868_2_alg».proof.Proof.Dense

noncomputable section

namespace Cert.KernelIdeal.Term

open Cert.KernelIdeal Idealize.ShloMosaic
open Facts₀ Facts

variable [Facts]

/-- The 850000 source nodes: row 0 of the edge list, then 0 … 49999. -/
def sources (ei : IVec S2x800000 32) : IVec S850000 32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The 850000 destination nodes: row 1 of the edge list, then 0 … 49999. -/
def dests (ei : IVec S2x800000 32) : IVec S850000 32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- Indices as a read uses them: 50000 added to the negative ones, laid as a column. -/
def readAt (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- Indices as a write uses them: as they are, laid as a column. -/
def writeAt (v : IVec S850000 32) : IVec S850000x1 32 :=
  broadcastInDim S850000x1 ![0] bcast_S850000_S850000x1_0 v

/-- The number of edges ending at each node. -/
def degree (ei : IVec S2x800000 32) : FVec Ideal S50000 .f32 :=
  Host.scatterAdd scatter_S50000_S850000x1_S850000_n_0_0_1
    (broadcastInDim S50000 ![] bcast_S_S50000 (constant S_ .f32 0x00000000#32))
    (writeAt (dests ei))
    (broadcastInDim S850000 ![] bcast_S_S850000 (constant S_ .f32 0x3F800000#32))

/-- degree^(-1/2) where the degree is positive, 0 elsewhere. -/
def weight (ei : IVec S2x800000 32) : FVec Ideal S50000 .f32 :=
  select (cmpf .ogt (degree ei) (broadcastInDim S50000 ![] bcast_S_S50000 (constant S_ .f32 0x00000000#32)))
    (Host.rsqrt (degree ei))
    (broadcastInDim S50000 ![] bcast_S_S50000 (constant S_ .f32 0x00000000#32))

/-- The weights as a column. -/
def weightColumn (ei : IVec S2x800000 32) : FVec Ideal S50000x1 .f32 :=
  broadcastInDim S50000x1 ![0] bcast_S50000_S50000x1_0 (weight ei)

/-- The first sum over the edges: rows scaled by their own weight, gathered at the sources, summed at the destinations. -/
def firstSum (x : FVec Ideal S50000x128 .f32) (ei : IVec S2x800000 32) : FVec Ideal S50000x128 .f32 :=
  Host.scatterAdd scatter_S50000x128_S850000x1_S850000x128_1_0_0_1
    (broadcastInDim S50000x128 ![] bcast_S_S50000x128 (constant S_ .f32 0x00000000#32))
    (writeAt (dests ei))
    (Host.gather gather_S50000x128_S850000x1_S850000x128_1_0_n_n_0_1_1128
      (mulf x (broadcastInDim S50000x128 ![0, 1] bcast_S50000x1_S50000x128_0_1 (weightColumn ei)))
      (readAt (sources ei)))

/-- The hidden layer. -/
def hidden (x : FVec Ideal S50000x128 .f32) (ei : IVec S2x800000 32) (W1 : FVec Ideal S128x128 .f32)
    (b1 : FVec Ideal S128 .f32) : S50000x128.Idx → EReal :=
  Cert.Sgc.Dense.scaledAffineClamp (n := 50000) (firstSum x ei) (weightColumn ei)
    (transpose S128x128 [1, 0] W1 transposes_S128x128_S128x128_1_0) b1

/-- The second dense stage of the hidden layer. -/
def projected (x : FVec Ideal S50000x128 .f32) (ei : IVec S2x800000 32) (W1 : FVec Ideal S128x128 .f32)
    (b1 : FVec Ideal S128 .f32) (W2 : FVec Ideal S40x128 .f32) : S50000x40.Idx → EReal :=
  Cert.Sgc.Dense.productScaled (n := 50000) (hidden x ei W1 b1) (weightColumn ei)
    (transpose S128x40 [1, 0] W2 transposes_S40x128_S128x40_1_0)

/-- The second sum over the edges, 40 columns wide. -/
def secondSum (x : FVec Ideal S50000x128 .f32) (ei : IVec S2x800000 32) (W1 : FVec Ideal S128x128 .f32)
    (b1 : FVec Ideal S128 .f32) (W2 : FVec Ideal S40x128 .f32) : FVec Ideal S50000x40 .f32 :=
  Host.scatterAdd scatter_S50000x40_S850000x1_S850000x40_1_0_0_1
    (broadcastInDim S50000x40 ![] bcast_S_S50000x40 (constant S_ .f32 0x00000000#32))
    (writeAt (dests ei))
    (Host.gather gather_S50000x40_S850000x1_S850000x40_1_0_n_n_0_1_140 (projected x ei W1 b1 W2) (readAt (sources ei)))

/-- The program's result. -/
def result (x : FVec Ideal S50000x128 .f32) (ei : IVec S2x800000 32) (W1 : FVec Ideal S128x128 .f32)
    (b1 : FVec Ideal S128 .f32) (W2 : FVec Ideal S40x128 .f32) (b2 : FVec Ideal S40 .f32) : FVec Ideal S50000x40 .f32 :=
  addf (mulf (secondSum x ei W1 b1 W2) (broadcastInDim S50000x40 ![0, 1] bcast_S50000x1_S50000x40_0_1 (weightColumn ei)))
    (broadcastInDim S50000x40 ![0, 1] bcast_S1x40_S50000x40_0_1 (broadcastInDim S1x40 ![1] bcast_S40_S1x40_1 b2))

end Cert.KernelIdeal.Term

end
-- ==== Proof.BodyValue.lean ====
/-
  What each kernel body computes, as a function of the blocks it loads, at the exact instance.

  The first body scales the rows of its [5000, 128] block by the [5000, 1] column, multiplies by the [128, 128] matrix (both
  factors pass through a change of format, which is the identity on extended reals; the accumulator starts at zero), adds
  the bias row and clamps at zero.  The second multiplies its [5000, 128] block by the [128, 40] matrix and scales the rows
  of the product by the column.
-/
import proofs.«164676_j40578851012868_2_alg».proof.Proof.Gen.KernelIdeal.Skeleton
import proofs.«164676_j40578851012868_2_alg».proof.Proof.Dense
import Idealize.ShloMosaic.Lib.Pipeline.Value
import Idealize.ShloMosaic.Lib.ValueLayout

noncomputable section

namespace Cert.KernelIdeal.BodyValue

open Cert.KernelIdeal Idealize.ShloMosaic Idealize.ShloMosaic.ValueIdx
open Facts₀ Facts

variable [Facts]

/-- The first body's stored value is stage one of its four loaded blocks. -/
theorem pay0_eq (x0 : Vec Ideal S5000x128 .f32) (x1 : Vec Ideal S5000x1 .f32) (x2 : Vec Ideal S128x128 .f32)
    (x3 : Vec Ideal S128 .f32) :
    Gen.k0_pay1 (F := Ideal) x0 x1 x2 x3 = Cert.Sgc.Dense.scaledAffineClamp x0 x1 x2 x3 := by
  funext j
  obtain ⟨p, q, rfl⟩ : ∃ (p : Fin 5000) (q : Fin 128), j = ix2 p q := ⟨j 0, j 1, eq_ix2 j⟩
  rw [Cert.Sgc.Dense.scaledAffineClamp_apply]
  unfold Gen.k0_pay1
  show (max (FloatOps.matmul (F := Ideal) dot_S5000x128_S128x128_S5000x128_1_0_0_1_n_n none _ _ (constant S5000x128 .f32 0x00000000#32) (ix2 p q)
      + broadcastTo S5000x128 (shapeCast S1x128 x3 shapeCasts_S128_S1x128) broadcasts_S1x128_S5000x128 (ix2 p q))
      (Ideal.ofBits .f32 0x00000000#32) : EReal) = _
  refine congrArg₂ max (congrArg₂ (· + ·) ?_ ?_) rfl
  · refine (Cert.LibRowMax.matmul_plain_apply dot_S5000x128_S128x128_S5000x128_1_0_0_1_n_n_wf none _ _ p q).trans ?_
    refine Finset.sum_congr rfl fun e _ => ?_
    show (shapeCast S5000x128 x0 shapeCasts_S5000x128_S5000x128 (ix2 p e)
        * broadcastTo S5000x128 (shapeCast S5000x1 x1 shapeCasts_S5000x1_S5000x1) broadcasts_S5000x1_S5000x128 (ix2 p e))
        * shapeCast S128x128 x2 shapeCasts_S128x128_S128x128 (ix2 e q) = _
    rw [shapeCast_self, shapeCast_self, shapeCast_self, Cert.LibColumn.broadcastTo_a1_ab_apply]
  · exact (broadcastTo_1b_ab_apply _ _ p q).trans (shapeCast_a_1a_apply _ _ 0 q)

/-- The second body's stored value is stage two of the three blocks it uses. -/
theorem pay1_eq (x0 : Vec Ideal S5000x128 .f32) (x2 : Vec Ideal S128x40 .f32) (x1 : Vec Ideal S5000x1 .f32) :
    Gen.k1_pay1 (F := Ideal) x0 x2 x1 = Cert.Sgc.Dense.productScaled x0 x1 x2 := by
  funext j
  obtain ⟨p, q, rfl⟩ : ∃ (p : Fin 5000) (q : Fin 40), j = ix2 p q := ⟨j 0, j 1, eq_ix2 j⟩
  rw [Cert.Sgc.Dense.productScaled_apply]
  unfold Gen.k1_pay1
  show (FloatOps.matmul (F := Ideal) dot_S5000x128_S128x40_S5000x40_1_0_0_1_n_n none _ _ (constant S5000x40 .f32 0x00000000#32) (ix2 p q)
      * broadcastTo S5000x40 (shapeCast S5000x1 x1 shapeCasts_S5000x1_S5000x1) broadcasts_S5000x1_S5000x40 (ix2 p q) : EReal) = _
  refine congrArg₂ (· * ·) ?_ ?_
  · refine (Cert.LibRowMax.matmul_plain_apply dot_S5000x128_S128x40_S5000x40_1_0_0_1_n_n_wf none _ _ p q).trans ?_
    refine Finset.sum_congr rfl fun e _ => ?_
    show shapeCast S5000x128 x0 shapeCasts_S5000x128_S5000x128 (ix2 p e)
        * shapeCast S128x40 x2 shapeCasts_S128x40_S128x40 (ix2 e q) = _
    rw [shapeCast_self, shapeCast_self]
  · rw [shapeCast_self, Cert.LibColumn.broadcastTo_a1_ab_apply]

end Cert.KernelIdeal.BodyValue

end
-- ==== Proof.Region0.lean ====
/-
  The first tiled region, as one function of whole arrays.

  The region walks ten blocks of 5000 rows.  At block t it reads rows 5000·t … 5000·t + 4999 of the aggregated features and of
  the weight column, the whole transposed matrix and the whole bias, and writes the same rows of its result: stage one of
  those blocks.  Stage one at a row depends only on that row of its first two operands, so the ten written blocks are the
  ten blocks of stage one of the whole arrays, and they tile the result.
-/
import proofs.«164676_j40578851012868_2_alg».proof.Proof.Gen.KernelIdeal.Frame
import proofs.«164676_j40578851012868_2_alg».proof.Proof.BodyValue

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The block indices over the grid: the two row-blocked inputs move with the output's row block and sit in column block 0,
    the matrix and the bias are always the one whole block, and the output's row block is at most 9. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_4.index t (1 : Fin 2) = 0 ∧ win0_4.index t (0 : Fin 2) ≤ 9
    ∧ win0_3.index t (0 : Fin 1) = 0 :=
  (by decide +kernel : ∀ t : Fin grid0.N, _)

/-- Every one of the ten row blocks is some point's. -/
theorem idx_onto : ∀ q0 : Fin 10, ∃ t : Fin cfg0.N, win0_4.index t = ![q0.val, 0] :=
  (by decide +kernel : ∀ q0 : Fin 10, ∃ t : Fin grid0.N, win0_4.index t = ![q0.val, 0])

/-- What the region's result holds in the end, as a function of the arrays the region finds. -/
abbrev whole (c : Dev nD) : S50000x128.Idx → EReal :=
  Cert.Sgc.Dense.scaledAffineClamp (n := 50000) (V c main_v27) (V c main_v15) (V c main_v28) (V c main_arg3)

/-- What point t writes back is block t of that function. -/
theorem flushed_eq (c : Dev nD) (t : Fin cfg0.N) :
    (dat0 V c).flushed 4 t = ((cfg0.win 4).blk t).view.read (Elt Ideal) (whole V c) := by
  show (cfg0.win 4).cut (grid0.coords t) ((dat0 V c).after 4 t) = _
  rw [after0_4]
  unfold out0_4
  rw [View.canon_unit_zero hz]
  simp only [View.ld_unit_zero (S := S5000x128) hz, View.ld_unit_zero (S := S5000x1) hz, View.ld_unit_zero (S := S128x128) hz, View.ld_unit_zero (S := S128) hz1]
  rw [Cert.KernelIdeal.BodyValue.pay0_eq]
  obtain ⟨e00, e01, e10, e11, e20, e21, e41, e4le, e30⟩ := idx_facts t
  have hblk : Cert.Sgc.Dense.scaledAffineClamp (n := 5000) (iblk0 V c 0 t) (iblk0 V c 1 t) (iblk0 V c 2 t) (iblk0 V c 3 t)
      = fun j : S5000x128.Idx => whole V c (((cfg0.win 4).blk t).view.emb j) := by
    have hW : iblk0 V c 2 t = V c main_v28 := by
      funext y
      refine congrArg (V c main_v28) (funext fun a => Fin.ext ?_)
      match a with
      | ⟨0, _⟩ => show win0_2.index t (0 : Fin 2) * 128 + 1 * (y 0).val = (y 0).val; omega
      | ⟨1, _⟩ => show win0_2.index t (1 : Fin 2) * 128 + 1 * (y 1).val = (y 1).val; omega
    have hβ : iblk0 V c 3 t = V c main_arg3 := by
      funext y
      refine congrArg (V c main_arg3) (funext fun a => Fin.ext ?_)
      match a with
      | ⟨0, _⟩ => show win0_3.index t (0 : Fin 1) * 128 + 1 * (y 0).val = (y 0).val; omega
    rw [hW, hβ]
    funext j
    have hj : j = ix2 (j 0) (j 1) := eq_ix2 j
    have hi : ((cfg0.win 4).blk t).view.emb j
        = ix2 ((((cfg0.win 4).blk t).view.emb j) 0) (j 1) := by
      funext a; apply Fin.ext
      match a with
      | ⟨0, _⟩ => rfl
      | ⟨1, _⟩ => show win0_4.index t (1 : Fin 2) * 128 + 1 * (j 1).val = (j 1).val; omega
    rw [hi]
    conv_lhs => rw [hj]
    refine Cert.Sgc.Dense.scaledAffineClamp_rows _ _ _ _ _ _ (j 0) _ (j 1) (fun e => ?_) ?_
    · refine congrArg (V c main_v27) (funext fun a => Fin.ext ?_)
      match a with
      | ⟨0, _⟩ => show win0_0.index t (0 : Fin 2) * 5000 + 1 * (j 0).val = win0_4.index t (0 : Fin 2) * 5000 + 1 * (j 0).val; omega
      | ⟨1, _⟩ => show win0_0.index t (1 : Fin 2) * 128 + 1 * e.val = e.val; omega
    · refine congrArg (V c main_v15) (funext fun a => Fin.ext ?_)
      match a with
      | ⟨0, _⟩ => show win0_1.index t (0 : Fin 2) * 5000 + 1 * (j 0).val = win0_4.index t (0 : Fin 2) * 5000 + 1 * (j 0).val; omega
      | ⟨1, _⟩ => show win0_1.index t (1 : Fin 2) * 1 + 1 * 0 = 0; omega
  exact hblk

/-- An index of the result is in point t's block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v29).slice (win0_4.rect t)).set ↔ _
  rw [View.set_slice_whole, Rect.mem_set_unit]
  exact Iff.rfl

/-- Every index of the result is in some written block: row r is in block r / 5000. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The result array after the region. -/
theorem array_eq (c : Dev nD) : (dat0 V c).arrAt 4 cfg0.N = whole V c :=
  (dat0 V c).arrAt_eq_of_cover 4 (whole V c) (fun t _ => flushed_eq V c t) cover

end Cert.KernelIdeal.Region0

end
-- ==== Proof.Region1.lean ====
/-
  The second tiled region, as one function of whole arrays.

  The region walks ten blocks of 5000 rows.  At block t it reads rows 5000·t … 5000·t + 4999 of the hidden layer and of the
  weight column and the whole transposed matrix, and writes the same rows of its result: stage two of those blocks.  Stage
  two at a row depends only on that row of its first two operands, so the ten written blocks are the ten blocks of stage
  two of the whole arrays, and they tile the result.
-/
import proofs.«164676_j40578851012868_2_alg».proof.Proof.Gen.KernelIdeal.Frame
import proofs.«164676_j40578851012868_2_alg».proof.Proof.BodyValue

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The block indices over the grid: the two row-blocked inputs move with the output's row block and sit in column block 0,
    the matrix is always the one whole block, and the output's row block is at most 9. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_4.index t (1 : Fin 2) = 0 ∧ win1_4.index t (0 : Fin 2) ≤ 9 :=
  (by decide +kernel : ∀ t : Fin grid1.N, _)

/-- Every one of the ten row blocks is some point's. -/
theorem idx_onto : ∀ q0 : Fin 10, ∃ t : Fin cfg1.N, win1_4.index t = ![q0.val, 0] :=
  (by decide +kernel : ∀ q0 : Fin 10, ∃ t : Fin grid1.N, win1_4.index t = ![q0.val, 0])

/-- What the region's result holds in the end, as a function of the arrays the region finds. -/
abbrev whole (c : Dev nD) : S50000x40.Idx → EReal :=
  Cert.Sgc.Dense.productScaled (n := 50000) (V c main_v29) (V c main_v15) (V c main_v31)

/-- What point t writes back is block t of that function. -/
theorem flushed_eq (c : Dev nD) (t : Fin cfg1.N) :
    (dat1 V c).flushed 4 t = ((cfg1.win 4).blk t).view.read (Elt Ideal) (whole V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S128x40) hz]
  rw [Cert.KernelIdeal.BodyValue.pay1_eq]
  obtain ⟨e00, e01, e10, e11, e20, e21, e41, e4le⟩ := idx_facts t
  have hblk : Cert.Sgc.Dense.productScaled (n := 5000) (iblk1 V c 0 t) (iblk1 V c 1 t) (iblk1 V c 2 t)
      = fun j : S5000x40.Idx => whole V c (((cfg1.win 4).blk t).view.emb j) := by
    have hW : iblk1 V c 2 t = V c main_v31 := by
      funext y
      refine congrArg (V c main_v31) (funext fun a => Fin.ext ?_)
      match a with
      | ⟨0, _⟩ => show win1_2.index t (0 : Fin 2) * 128 + 1 * (y 0).val = (y 0).val; omega
      | ⟨1, _⟩ => show win1_2.index t (1 : Fin 2) * 40 + 1 * (y 1).val = (y 1).val; omega
    rw [hW]
    funext j
    have hj : j = ix2 (j 0) (j 1) := eq_ix2 j
    have hi : ((cfg1.win 4).blk t).view.emb j
        = ix2 ((((cfg1.win 4).blk t).view.emb j) 0) (j 1) := by
      funext a; apply Fin.ext
      match a with
      | ⟨0, _⟩ => rfl
      | ⟨1, _⟩ => show win1_4.index t (1 : Fin 2) * 40 + 1 * (j 1).val = (j 1).val; omega
    rw [hi]
    conv_lhs => rw [hj]
    refine Cert.Sgc.Dense.productScaled_rows _ _ _ _ _ (j 0) _ (j 1) (fun e => ?_) ?_
    · refine congrArg (V c main_v29) (funext fun a => Fin.ext ?_)
      match a with
      | ⟨0, _⟩ => show win1_0.index t (0 : Fin 2) * 5000 + 1 * (j 0).val = win1_4.index t (0 : Fin 2) * 5000 + 1 * (j 0).val; omega
      | ⟨1, _⟩ => show win1_0.index t (1 : Fin 2) * 128 + 1 * e.val = e.val; omega
    · refine congrArg (V c main_v15) (funext fun a => Fin.ext ?_)
      match a with
      | ⟨0, _⟩ => show win1_1.index t (0 : Fin 2) * 5000 + 1 * (j 0).val = win1_4.index t (0 : Fin 2) * 5000 + 1 * (j 0).val; omega
      | ⟨1, _⟩ => show win1_1.index t (1 : Fin 2) * 1 + 1 * 0 = 0; omega
  exact hblk

/-- An index of the result is in point t's block iff each coordinate is in the block's range on its axis. -/
theorem mem_blk (t : Fin cfg1.N) (i : S50000x40.Idx) :
    i ∈ ((cfg1.win 4).blk t).view.set ↔ ∀ a : Fin 2, win1_4.index t a * S5000x40.size a ≤ (i a).val ∧ (i a).val < win1_4.index t a * S5000x40.size a + S5000x40.size a := by
  show i ∈ ((View.whole main_v32).slice (win1_4.rect t)).set ↔ _
  rw [View.set_slice_whole, Rect.mem_set_unit]
  exact Iff.rfl

/-- Every index of the result is in some written block: row r is in block r / 5000. -/
theorem cover (i : S50000x40.Idx) :
    ∃ t : Fin cfg1.N, (cfg1.win 4).flush t = true ∧ i ∈ ((cfg1.win 4).blk t).view.set := by
  have hi0 : (i 0).val < 50000 := (i 0).isLt
  have hi1 : (i 1).val < 40 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 40 ≤ (i 1).val ∧ (i 1).val < win1_4.index t (1 : Fin 2) * 40 + 40; omega

/-- The result array after the region. -/
theorem array_eq (c : Dev nD) : (dat1 V c).arrAt 4 cfg1.N = whole V c :=
  (dat1 V c).arrAt_eq_of_cover 4 (whole V c) (fun t _ => flushed_eq V c t) cover

end Cert.KernelIdeal.Region1

end
-- ==== Proof.KernelValue.lean ====
/-
  The kernel program's buffers at each boundary between its segments, as terms of the argument arrays.

  Before the first region: the edge lists, the weight column, the first sum over the edges, the transposed first matrix.
  The first region leaves the hidden layer in its result array and every array it only reads as it was.  The short line
  after it transposes the second matrix.  The second region leaves the projected, scaled hidden layer.  The last line
  gathers and sums it over the edges, scales by the weights and adds the bias: the program's result.
-/
import proofs.«164676_j40578851012868_2_alg».proof.Proof.Gen.KernelIdeal.Frame
import proofs.«164676_j40578851012868_2_alg».proof.Proof.KernelTerm
import proofs.«164676_j40578851012868_2_alg».proof.Proof.Region0
import proofs.«164676_j40578851012868_2_alg».proof.Proof.Region1
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The outlined selection's buffers hold their values as they are

A value carried into one of these buffers' own types, or back, is unchanged: the types are the same. -/

theorem of_cst2 (u : (⟨S_, .f32⟩ : BufTy).Contents (Elt Ideal)) : (TRef.of (T := ⟨S_, .f32⟩) main_cst_2).ofBuf u = u := rfl
theorem of_c0v0 (u : (⟨S_, .f32⟩ : BufTy).Contents (Elt Ideal)) : (TRef.of (T := ⟨S_, .f32⟩) main_call0_v0).ofBuf u = u := rfl
theorem to_c0v0 (u : (⟨S_, .f32⟩ : BufTy).Contents (Elt Ideal)) : (TRef.of (T := ⟨S_, .f32⟩) main_call0_v0).toBuf u = u := rfl
theorem of_c0v1 (u : (⟨S50000, .f32⟩ : BufTy).Contents (Elt Ideal)) : (TRef.of (T := ⟨S50000, .f32⟩) main_call0_v1).ofBuf u = u := rfl
theorem to_c0v1 (u : (⟨S50000, .f32⟩ : BufTy).Contents (Elt Ideal)) : (TRef.of (T := ⟨S50000, .f32⟩) main_call0_v1).toBuf u = u := rfl
theorem of_v12 (u : (⟨S50000, .i1⟩ : BufTy).Contents (Elt Ideal)) : (TRef.of (T := ⟨S50000, .i1⟩) main_v12).ofBuf u = u := rfl
theorem of_v13 (u : (⟨S50000, .f32⟩ : BufTy).Contents (Elt Ideal)) : (TRef.of (T := ⟨S50000, .f32⟩) main_v13).ofBuf u = u := rfl
theorem to_v14 (u : (⟨S50000, .f32⟩ : BufTy).Contents (Elt Ideal)) : (TRef.of (T := ⟨S50000, .f32⟩) main_v14).toBuf u = u := rfl

-- the comparisons below are between two spellings of one term: they never need to open these operations
attribute [local irreducible] Host.scatterAdd Host.gather concatenate extractStridedSlice iotaInDim transpose

/-! ## Before the first region -/

theorem before_sources : W3 m ρ c (Proc.devRef .tc main_v5) = Term.sources (m ((c.tc : Thread nD τ).loc main_arg1)) := by
  dsimp only [W3, W2, W1, W0, hostOps0, hostOps0_1, hostOps0_2]
  after_results
  rfl

theorem before_dests : W3 m ρ c (Proc.devRef .tc main_v6) = Term.dests (m ((c.tc : Thread nD τ).loc main_arg1)) := by
  dsimp only [W3, W2, W1, W0, hostOps0, hostOps0_1, hostOps0_2]
  after_results
  rfl

theorem before_weightColumn : W3 m ρ c (Proc.devRef .tc main_v15) = Term.weightColumn (m ((c.tc : Thread nD τ).loc main_arg1)) := by
  dsimp only [W3, W2, W1, W0, hostOps0, hostOps0_1, hostOps0_2]
  after_results
  rw [to_v14, of_v12, of_v13, of_c0v1, to_c0v1, of_c0v0, to_c0v0, of_cst2]
  rfl

set_option maxHeartbeats 4000000 in
theorem before_firstSum : W3 m ρ c (Proc.devRef .tc main_v27) = Term.firstSum (m ((c.tc : Thread nD τ).loc main_arg0)) (m ((c.tc : Thread nD τ).loc main_arg1)) := by
  dsimp only [W3, W2, W1, W0, hostOps0, hostOps0_1, hostOps0_2]
  after_results
  rw [to_v14, of_v12, of_v13, of_c0v1, to_c0v1, of_c0v0, to_c0v0, of_cst2]
  rfl

theorem before_matrix1 : W3 m ρ c (Proc.devRef .tc main_v28)
    = transpose S128x128 [1, 0] (m ((c.tc : Thread nD τ).loc main_arg2)) Facts₀.transposes_S128x128_S128x128_1_0 := by
  dsimp only [W3, W2, W1, W0, hostOps0, hostOps0_1, hostOps0_2]
  after_results

theorem before_arg3 : W3 m ρ c (Proc.devRef .tc main_arg3) = (m ((c.tc : Thread nD τ).loc main_arg3)) := by
  dsimp only [W3, W2, W1, W0, hostOps0, hostOps0_1, hostOps0_2]
  after_results

theorem before_arg4 : W3 m ρ c (Proc.devRef .tc main_arg4) = (m ((c.tc : Thread nD τ).loc main_arg4)) := by
  dsimp only [W3, W2, W1, W0, hostOps0, hostOps0_1, hostOps0_2]
  after_results

theorem before_arg5 : W3 m ρ c (Proc.devRef .tc main_arg5) = (m ((c.tc : Thread nD τ).loc main_arg5)) := by
  dsimp only [W3, W2, W1, W0, hostOps0, hostOps0_1, hostOps0_2]
  after_results

/-! ## After the first region -/

theorem mid_hidden : W4 m ρ c (Proc.devRef .tc main_v29) = Term.hidden (m ((c.tc : Thread nD τ).loc main_arg0)) (m ((c.tc : Thread nD τ).loc main_arg1)) (m ((c.tc : Thread nD τ).loc main_arg2)) (m ((c.tc : Thread nD τ).loc main_arg3)) := by
  refine (W4_arr m ρ c 4).trans ?_
  rw [Cert.KernelIdeal.Region0.array_eq]
  show Cert.Sgc.Dense.scaledAffineClamp (n := 50000) (V3 m ρ c main_v27) (V3 m ρ c main_v15) (V3 m ρ c main_v28) (V3 m ρ c main_arg3) = _
  have h27 : V3 m ρ c main_v27 = _ := before_firstSum m ρ c
  have h15 : V3 m ρ c main_v15 = _ := before_weightColumn m ρ c
  have h28 : V3 m ρ c main_v28 = _ := before_matrix1 m ρ c
  have h3 : V3 m ρ c main_arg3 = _ := before_arg3 m ρ c
  rw [h27, h15, h28, h3]
  rfl

theorem mid_weightColumn : W4 m ρ c (Proc.devRef .tc main_v15) = Term.weightColumn (m ((c.tc : Thread nD τ).loc main_arg1)) :=
  ((W4_arr m ρ c 1).trans (((dat0 (V3 m ρ) c).arrAt_in 1 rfl _).trans (A_eq0 (V3 m ρ) c 1))).trans (before_weightColumn m ρ c)

theorem mid_sources : W4 m ρ c (Proc.devRef .tc main_v5) = Term.sources (m ((c.tc : Thread nD τ).loc main_arg1)) :=
  (W4_of_ne m ρ c main_v5 (by decide)).trans (before_sources m ρ c)

theorem mid_dests : W4 m ρ c (Proc.devRef .tc main_v6) = Term.dests (m ((c.tc : Thread nD τ).loc main_arg1)) :=
  (W4_of_ne m ρ c main_v6 (by decide)).trans (before_dests m ρ c)

theorem mid_arg4 : W4 m ρ c (Proc.devRef .tc main_arg4) = (m ((c.tc : Thread nD τ).loc main_arg4)) :=
  (W4_of_ne m ρ c main_arg4 (by decide)).trans (before_arg4 m ρ c)

theorem mid_arg5 : W4 m ρ c (Proc.devRef .tc main_arg5) = (m ((c.tc : Thread nD τ).loc main_arg5)) :=
  (W4_of_ne m ρ c main_arg5 (by decide)).trans (before_arg5 m ρ c)

/-! ## Before the second region -/

theorem second_matrix2 : W5 m ρ c (Proc.devRef .tc main_v31)
    = transpose S128x40 [1, 0] (m ((c.tc : Thread nD τ).loc main_arg4)) Facts₀.transposes_S40x128_S128x40_1_0 := by
  dsimp only [W5, hostOps1]
  after_results
  rw [mid_arg4]

theorem second_hidden : W5 m ρ c (Proc.devRef .tc main_v29) = Term.hidden (m ((c.tc : Thread nD τ).loc main_arg0)) (m ((c.tc : Thread nD τ).loc main_arg1)) (m ((c.tc : Thread nD τ).loc main_arg2)) (m ((c.tc : Thread nD τ).loc main_arg3)) := by
  dsimp only [W5, hostOps1]
  after_results
  exact mid_hidden m ρ c

theorem second_weightColumn : W5 m ρ c (Proc.devRef .tc main_v15) = Term.weightColumn (m ((c.tc : Thread nD τ).loc main_arg1)) := by
  dsimp only [W5, hostOps1]
  after_results
  exact mid_weightColumn m ρ c

theorem second_sources : W5 m ρ c (Proc.devRef .tc main_v5) = Term.sources (m ((c.tc : Thread nD τ).loc main_arg1)) := by
  dsimp only [W5, hostOps1]
  after_results
  exact mid_sources m ρ c

theorem second_dests : W5 m ρ c (Proc.devRef .tc main_v6) = Term.dests (m ((c.tc : Thread nD τ).loc main_arg1)) := by
  dsimp only [W5, hostOps1]
  after_results
  exact mid_dests m ρ c

theorem second_arg5 : W5 m ρ c (Proc.devRef .tc main_arg5) = (m ((c.tc : Thread nD τ).loc main_arg5)) := by
  dsimp only [W5, hostOps1]
  after_results
  exact mid_arg5 m ρ c

/-! ## After the second region -/

theorem late_projected : W6 m ρ c (Proc.devRef .tc main_v32)
    = Term.projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W6_arr m ρ c 4).trans ?_
  rw [Cert.KernelIdeal.Region1.array_eq]
  show Cert.Sgc.Dense.productScaled (n := 50000) (V5 m ρ c main_v29) (V5 m ρ c main_v15) (V5 m ρ c main_v31) = _
  have h29 : V5 m ρ c main_v29 = _ := second_hidden m ρ c
  have h15 : V5 m ρ c main_v15 = _ := second_weightColumn m ρ c
  have h31 : V5 m ρ c main_v31 = _ := second_matrix2 m ρ c
  rw [h29, h15, h31]
  rfl

theorem late_weightColumn : W6 m ρ c (Proc.devRef .tc main_v15) = Term.weightColumn (m ((c.tc : Thread nD τ).loc main_arg1)) :=
  ((W6_arr m ρ c 1).trans (((dat1 (V5 m ρ) c).arrAt_in 1 rfl _).trans (A_eq1 (V5 m ρ) c 1))).trans (second_weightColumn m ρ c)

theorem late_sources : W6 m ρ c (Proc.devRef .tc main_v5) = Term.sources (m ((c.tc : Thread nD τ).loc main_arg1)) :=
  (W6_of_ne m ρ c main_v5 (by decide)).trans (second_sources m ρ c)

theorem late_dests : W6 m ρ c (Proc.devRef .tc main_v6) = Term.dests (m ((c.tc : Thread nD τ).loc main_arg1)) :=
  (W6_of_ne m ρ c main_v6 (by decide)).trans (second_dests m ρ c)

theorem late_arg5 : W6 m ρ c (Proc.devRef .tc main_arg5) = (m ((c.tc : Thread nD τ).loc main_arg5)) :=
  (W6_of_ne m ρ c main_arg5 (by decide)).trans (second_arg5 m ρ c)

/-! ## The result -/

set_option maxHeartbeats 4000000 in
/-- The result buffer after the last line of host operations is the program's result term of the six arguments. -/
theorem result_eq : W7 m ρ c (Proc.devRef .tc main_v47)
    = Term.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  dsimp only [W7, hostOps2]
  after_results
  rw [late_projected, late_sources, late_dests, late_weightColumn, late_arg5]
  rfl

end Cert.KernelIdeal.Fold

end
-- ==== Proof.RefRunOps.lean ====
/-
  The reference program's @main as a straight line.

  @main is 121 host operations in order: the three outlined calls (the two selects that guard the reciprocal square
  root, and the clamp at zero) stand in their calls' places as three operations each, over the typed buffers each call
  names.  Here: the list of the operations, that @main is that line, that the program scopes no buffer and no
  semaphore, and that every operation touches TensorCore buffers only — what the run of a straight line asks for.
-/
import proofs.«164676_j40578851012868_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 121 operations, in order (an outlined function's operations stand in its call's place, over typed buffers). -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v5 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v5 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v30 (broadcastInDim S850000 ![] bcast_S_S850000 : (⟨S_, .i32⟩ : BufTy).Contents (Elt F) → (⟨S850000, .i32⟩ : BufTy).Contents (Elt F)),
    binary main_v5 main_v30 main_v31 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v32 (broadcastInDim S850000 ![] bcast_S_S850000 : (⟨S_, .i32⟩ : BufTy).Contents (Elt F) → (⟨S850000, .i32⟩ : BufTy).Contents (Elt F)),
    binary main_v5 main_v32 main_v33 (addi : (⟨S850000, .i32⟩ : BufTy).Contents (Elt F) → (⟨S850000, .i32⟩ : BufTy).Contents (Elt F) → (⟨S850000, .i32⟩ : BufTy).Contents (Elt F)),
    ternary main_v31 main_v33 main_v5 main_v34 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v34 main_v35 (broadcastInDim S850000x1 ![0] bcast_S850000_S850000x1_0 : (⟨S850000, .i32⟩ : BufTy).Contents (Elt F) → (⟨S850000x1, .i32⟩ : BufTy).Contents (Elt F)),
    binary main_arg0 main_v35 main_v36 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v37 (broadcastInDim S850000x1 ![0] bcast_S850000_S850000x1_0 : (⟨S850000, .f32⟩ : BufTy).Contents (Elt F) → (⟨S850000x1, .f32⟩ : BufTy).Contents (Elt F)),
    unary main_v37 main_v38 (broadcastInDim S850000x128 ![0, 1] bcast_S850000x1_S850000x128_0_1 : (⟨S850000x1, .f32⟩ : BufTy).Contents (Elt F) → (⟨S850000x128, .f32⟩ : BufTy).Contents (Elt F)),
    binary main_v36 main_v38 main_v39 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v40 (broadcastInDim S50000x128 ![] bcast_S_S50000x128 : (⟨S_, .f32⟩ : BufTy).Contents (Elt F) → (⟨S50000x128, .f32⟩ : BufTy).Contents (Elt F)),
    unary main_v6 main_v41 (broadcastInDim S850000x1 ![0] bcast_S850000_S850000x1_0 : (⟨S850000, .i32⟩ : BufTy).Contents (Elt F) → (⟨S850000x1, .i32⟩ : BufTy).Contents (Elt F)),
    ternary main_v40 main_v41 main_v39 main_v42 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg2 main_v43 ((transpose S128x128 [1, 0] · transposes_S128x128_S128x128_1_0) : (⟨S128x128, .f32⟩ : BufTy).Contents (Elt F) → (⟨S128x128, .f32⟩ : BufTy).Contents (Elt F)),
    binary main_v42 main_v43 main_v44 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v47) (TRef.of (T := ⟨S50000x128, .f32⟩) main_call1_v0) (TRef.of (T := ⟨S50000x128, .f32⟩) main_v48) maximumf,
    nullary main_v49 (iotaInDim S50000 32 0),
    binary main_v1 main_v49 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v49 main_v51 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_9 (constant S_ .f32 0x3F800000#32),
    unary main_cst_9 main_v52 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v53 (broadcastInDim S50000 ![] bcast_S_S50000 : (⟨S_, .f32⟩ : BufTy).Contents (Elt F) → (⟨S50000, .f32⟩ : BufTy).Contents (Elt F)),
    unary main_v51 main_v54 (broadcastInDim S850000x1 ![0] bcast_S850000_S850000x1_0 : (⟨S850000, .i32⟩ : BufTy).Contents (Elt F) → (⟨S850000x1, .i32⟩ : BufTy).Contents (Elt F)),
    ternary main_v53 main_v54 main_v52 main_v55 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v56 (broadcastInDim S50000 ![] bcast_S_S50000 : (⟨S_, .f32⟩ : BufTy).Contents (Elt F) → (⟨S50000, .f32⟩ : BufTy).Contents (Elt F)),
    binary main_v55 main_v56 main_v57 (cmpf .ogt : (⟨S50000, .f32⟩ : BufTy).Contents (Elt F) → (⟨S50000, .f32⟩ : BufTy).Contents (Elt F) → (⟨S50000, .i1⟩ : BufTy).Contents (Elt F)),
    unary main_v55 main_v58 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v57) (TRef.of (T := ⟨S50000, .f32⟩) main_v58) (TRef.of (T := ⟨S50000, .f32⟩) main_call2_v1) (TRef.of (T := ⟨S50000, .f32⟩) main_v59) select,
    nullary main_c_13 (constantI S_ 32 0#32),
    unary main_c_13 main_v60 (broadcastInDim S850000 ![] bcast_S_S850000 : (⟨S_, .i32⟩ : BufTy).Contents (Elt F) → (⟨S850000, .i32⟩ : BufTy).Contents (Elt F)),
    binary main_v50 main_v60 main_v61 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v62 (broadcastInDim S850000 ![] bcast_S_S850000 : (⟨S_, .i32⟩ : BufTy).Contents (Elt F) → (⟨S850000, .i32⟩ : BufTy).Contents (Elt F)),
    binary main_v50 main_v62 main_v63 (addi : (⟨S850000, .i32⟩ : BufTy).Contents (Elt F) → (⟨S850000, .i32⟩ : BufTy).Contents (Elt F) → (⟨S850000, .i32⟩ : BufTy).Contents (Elt F)),
    ternary main_v61 main_v63 main_v50 main_v64 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v64 main_v65 (broadcastInDim S850000x1 ![0] bcast_S850000_S850000x1_0 : (⟨S850000, .i32⟩ : BufTy).Contents (Elt F) → (⟨S850000x1, .i32⟩ : BufTy).Contents (Elt F)),
    binary main_v59 main_v65 main_v66 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v67 (broadcastInDim S850000 ![] bcast_S_S850000 : (⟨S_, .i32⟩ : BufTy).Contents (Elt F) → (⟨S850000, .i32⟩ : BufTy).Contents (Elt F)),
    binary main_v51 main_v67 main_v68 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v69 (broadcastInDim S850000 ![] bcast_S_S850000 : (⟨S_, .i32⟩ : BufTy).Contents (Elt F) → (⟨S850000, .i32⟩ : BufTy).Contents (Elt F)),
    binary main_v51 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v51 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v59 main_v72 main_v73 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v66 main_v73 main_v74 (mulf : (⟨S850000, .f32⟩ : BufTy).Contents (Elt F) → (⟨S850000, .f32⟩ : BufTy).Contents (Elt F) → (⟨S850000, .f32⟩ : BufTy).Contents (Elt F)),
    nullary main_c_17 (constantI S_ 32 0#32),
    unary main_c_17 main_v75 (broadcastInDim S850000 ![] bcast_S_S850000 : (⟨S_, .i32⟩ : BufTy).Contents (Elt F) → (⟨S850000, .i32⟩ : BufTy).Contents (Elt F)),
    binary main_v50 main_v75 main_v76 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v77 (broadcastInDim S850000 ![] bcast_S_S850000 : (⟨S_, .i32⟩ : BufTy).Contents (Elt F) → (⟨S850000, .i32⟩ : BufTy).Contents (Elt F)),
    binary main_v50 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v50 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v48 main_v80 main_v81 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v74 main_v82 (broadcastInDim S850000x1 ![0] bcast_S850000_S850000x1_0 : (⟨S850000, .f32⟩ : BufTy).Contents (Elt F) → (⟨S850000x1, .f32⟩ : BufTy).Contents (Elt F)),
    unary main_v82 main_v83 (broadcastInDim S850000x128 ![0, 1] bcast_S850000x1_S850000x128_0_1 : (⟨S850000x1, .f32⟩ : BufTy).Contents (Elt F) → (⟨S850000x128, .f32⟩ : BufTy).Contents (Elt F)),
    binary main_v81 main_v83 main_v84 (mulf : (⟨S850000x128, .f32⟩ : BufTy).Contents (Elt F) → (⟨S850000x128, .f32⟩ : BufTy).Contents (Elt F) → (⟨S850000x128, .f32⟩ : BufTy).Contents (Elt F)),
    nullary main_cst_19 (constant S_ .f32 0x00000000#32),
    unary main_cst_19 main_v85 (broadcastInDim S50000x128 ![] bcast_S_S50000x128 : (⟨S_, .f32⟩ : BufTy).Contents (Elt F) → (⟨S50000x128, .f32⟩ : BufTy).Contents (Elt F)),
    unary main_v51 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v88 ((transpose S128x40 [1, 0] · transposes_S40x128_S128x40_1_0) : (⟨S40x128, .f32⟩ : BufTy).Contents (Elt F) → (⟨S128x40, .f32⟩ : BufTy).Contents (Elt F)),
    binary main_v87 main_v88 main_v89 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg5 main_v90 (broadcastInDim S1x40 ![1] bcast_S40_S1x40_1 : (⟨S40, .f32⟩ : BufTy).Contents (Elt F) → (⟨S1x40, .f32⟩ : BufTy).Contents (Elt F)),
    unary main_v90 main_v91 (broadcastInDim S50000x40 ![0, 1] bcast_S1x40_S50000x40_0_1 : (⟨S1x40, .f32⟩ : BufTy).Contents (Elt F) → (⟨S50000x40, .f32⟩ : BufTy).Contents (Elt F)),
    binary main_v89 main_v91 main_v92 (addf : (⟨S50000x40, .f32⟩ : BufTy).Contents (Elt F) → (⟨S50000x40, .f32⟩ : BufTy).Contents (Elt F) → (⟨S50000x40, .f32⟩ : BufTy).Contents (Elt F)) ]

set_option maxRecDepth 8192 in
set_option maxHeartbeats 4000000 in
/-- @main is that line. -/
theorem main_eq (c : Dev nD) : main (F := F) c = seq ops := rfl
/-- The program scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub ..⟩

end Cert.ReferenceIdeal.HandRun

end
-- ==== Proof.RefTerm.lean ====
/-
  The reference's result as ONE term of its six argument arrays, built stage by stage.

  The edge list [2, 800000] gives 800000 (source, destination) pairs; every node 0 … 49999 is joined to itself, which makes
  850000 edges.  A node's degree is the number of edges that end at it; its weight is degree^(-1/2) where the degree is
  positive and 0 elsewhere.  One propagation of features h : [50000, C] sums, at each node, the rows h[source] of the edges
  that end there, each multiplied by weight[source] · weight[destination].  The network is: propagate, multiply by W1ᵀ, add
  b1, clamp at zero, propagate, multiply by W2ᵀ, add b2.

  A negative index counts from the end where a row is READ (50000 is added to it, and the read then clamps into range);
  where a row is WRITTEN an index outside 0 … 49999 drops the update.
-/
import proofs.«164676_j40578851012868_2_alg».proof.ReferenceIdeal

noncomputable section

namespace Cert.ReferenceIdeal.Term

open Cert.ReferenceIdeal Idealize.ShloMosaic
open Facts₀ Facts

variable {F : FTy → Type} [FloatOps F] [Facts]

/-- The 850000 source nodes: row 0 of the edge list, then 0 … 49999. -/
def sources (ei : IVec S2x800000 32) : IVec S850000 32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The 850000 destination nodes: row 1 of the edge list, then 0 … 49999. -/
def dests (ei : IVec S2x800000 32) : IVec S850000 32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- Indices as a read uses them: 50000 added to the negative ones, laid as a column. -/
def readAt (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- Indices as a write uses them: as they are, laid as a column. -/
def writeAt (v : IVec S850000 32) : IVec S850000x1 32 :=
  broadcastInDim S850000x1 ![0] bcast_S850000_S850000x1_0 v

/-- The number of edges ending at each node. -/
def degree (ei : IVec S2x800000 32) : FVec F S50000 .f32 :=
  Host.scatterAdd scatter_S50000_S850000x1_S850000_n_0_0_1
    (broadcastInDim S50000 ![] bcast_S_S50000 (constant S_ .f32 0x00000000#32))
    (writeAt (dests ei))
    (broadcastInDim S850000 ![] bcast_S_S850000 (constant S_ .f32 0x3F800000#32))

/-- degree^(-1/2) where the degree is positive, 0 elsewhere. -/
def weight (ei : IVec S2x800000 32) : FVec F S50000 .f32 :=
  select (cmpf .ogt (degree (F := F) ei) (broadcastInDim S50000 ![] bcast_S_S50000 (constant S_ .f32 0x00000000#32)))
    (Host.rsqrt (degree (F := F) ei))
    (broadcastInDim S50000 ![] bcast_S_S50000 (constant S_ .f32 0x00000000#32))

/-- One propagation: the gathered source rows, weighted per edge by weight[source] · weight[destination], summed at the
    destinations. -/
def propagate (ei : IVec S2x800000 32) (h : FVec F S50000x128 .f32) : FVec F S50000x128 .f32 :=
  Host.scatterAdd scatter_S50000x128_S850000x1_S850000x128_1_0_0_1
    (broadcastInDim S50000x128 ![] bcast_S_S50000x128 (constant S_ .f32 0x00000000#32))
    (writeAt (dests ei))
    (mulf (Host.gather gather_S50000x128_S850000x1_S850000x128_1_0_n_n_0_1_1128 h (readAt (sources ei)))
      (broadcastInDim S850000x128 ![0, 1] bcast_S850000x1_S850000x128_0_1
        (broadcastInDim S850000x1 ![0] bcast_S850000_S850000x1_0
          (mulf (Host.gather gather_S50000_S850000x1_S850000_n_0_n_n_0_1_1 (weight (F := F) ei) (readAt (sources ei)))
            (Host.gather gather_S50000_S850000x1_S850000_n_0_n_n_0_1_1 (weight (F := F) ei) (readAt (dests ei)))))))

/-- The hidden layer: propagate, times W1ᵀ, plus b1, clamped at zero. -/
def hidden (x : FVec F S50000x128 .f32) (ei : IVec S2x800000 32) (W1 : FVec F S128x128 .f32) (b1 : FVec F S128 .f32) :
    FVec F S50000x128 .f32 :=
  maximumf
    (addf (Host.dotGeneral dot_S50000x128_S128x128_S50000x128_1_0_0_1_n_n none (propagate ei x)
        (transpose S128x128 [1, 0] W1 transposes_S128x128_S128x128_1_0))
      (broadcastInDim S50000x128 ![0, 1] bcast_S1x128_S50000x128_0_1 (broadcastInDim S1x128 ![1] bcast_S128_S1x128_1 b1)))
    (broadcastInDim S50000x128 ![] bcast_S_S50000x128 (constant S_ .f32 0x00000000#32))

/-- The network's result. -/
def result (x : FVec F S50000x128 .f32) (ei : IVec S2x800000 32) (W1 : FVec F S128x128 .f32) (b1 : FVec F S128 .f32)
    (W2 : FVec F S40x128 .f32) (b2 : FVec F S40 .f32) : FVec F S50000x40 .f32 :=
  addf (Host.dotGeneral dot_S50000x128_S128x40_S50000x40_1_0_0_1_n_n none (propagate ei (hidden x ei W1 b1))
      (transpose S128x40 [1, 0] W2 transposes_S40x128_S128x40_1_0))
    (broadcastInDim S50000x40 ![0, 1] bcast_S1x40_S50000x40_0_1 (broadcastInDim S1x40 ![1] bcast_S40_S1x40_1 b2))

end Cert.ReferenceIdeal.Term

end
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.RefRun.lean ====
/-
  The reference program's run, read back.

  The reference's @main is a straight line of 121 host operations (the three outlined calls — the two selects that
  guard the reciprocal square root and the clamp at zero — stand in their calls' places, three operations each).  From
  any memory with zero counters every weakly fair execution of it on the TensorCores terminates; the result buffer then
  holds the network's result as ONE term of the six argument arrays (`Cert.ReferenceIdeal.Term.result`: the degree and
  the weight of every node, one propagation, the hidden layer, a second propagation, the output layer), and the six
  argument buffers hold what they held at the launch.

  The line computes the node degrees and weights twice, once for each propagation, with the same operations on the same
  edge list: both are the one term `Term.weight`.  A value that passes through an outlined call's typed buffers comes
  through unchanged, and the conversion of a scalar to its own type in front of the select's else-branch is the identity.
-/
import proofs.«164676_j40578851012868_2_alg».proof.Proof.RefRunOps
import proofs.«164676_j40578851012868_2_alg».proof.Proof.RefTerm
import proofs.«164676_j40578851012868_2_alg».proof.Proof.LibStretch
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## What the line leaves in the result buffer and in the argument buffers -/

-- the operations that walk their operands' elements stay folded while the two sides are compared: the comparison
-- never looks inside them, only at their operands
attribute [local irreducible] Host.scatterAdd Host.gather concatenate extractStridedSlice iotaInDim transpose in
set_option maxRecDepth 8192 in
set_option maxHeartbeats 48400000 in
/-- After the line, from any contents `V`, the result buffer holds the network's result of the six argument buffers'
    contents: each operation's value is read at the buffers of its operands, and the composed term is `Term.result`
    stage by stage. -/
theorem result_eq (V : Valuation τ sig (Elt F)) :
    after ops V (main_v92 : DevRef τ sig)
      = Term.result (F := F) (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 8192 in
set_option maxHeartbeats 4000000 in
/-- No operation of the line writes an argument buffer: each keeps its contents. -/
theorem arg0_eq (V : Valuation τ sig (Elt F)) : after ops V (main_arg0 : DevRef τ sig) = V (main_arg0 : DevRef τ sig) := by
  after_results_simp
set_option maxRecDepth 8192 in
set_option maxHeartbeats 4000000 in
@[inherit_doc arg0_eq]
theorem arg1_eq (V : Valuation τ sig (Elt F)) : after ops V (main_arg1 : DevRef τ sig) = V (main_arg1 : DevRef τ sig) := by
  after_results_simp
set_option maxRecDepth 8192 in
set_option maxHeartbeats 4000000 in
@[inherit_doc arg0_eq]
theorem arg2_eq (V : Valuation τ sig (Elt F)) : after ops V (main_arg2 : DevRef τ sig) = V (main_arg2 : DevRef τ sig) := by
  after_results_simp
set_option maxRecDepth 8192 in
set_option maxHeartbeats 4000000 in
@[inherit_doc arg0_eq]
theorem arg3_eq (V : Valuation τ sig (Elt F)) : after ops V (main_arg3 : DevRef τ sig) = V (main_arg3 : DevRef τ sig) := by
  after_results_simp
set_option maxRecDepth 8192 in
set_option maxHeartbeats 4000000 in
@[inherit_doc arg0_eq]
theorem arg4_eq (V : Valuation τ sig (Elt F)) : after ops V (main_arg4 : DevRef τ sig) = V (main_arg4 : DevRef τ sig) := by
  after_results_simp
set_option maxRecDepth 8192 in
set_option maxHeartbeats 4000000 in
@[inherit_doc arg0_eq]
theorem arg5_eq (V : Valuation τ sig (Elt F)) : after ops V (main_arg5 : DevRef τ sig) = V (main_arg5 : DevRef τ sig) := by
  after_results_simp

/-! ## The run -/

set_option maxRecDepth 8192 in
set_option maxHeartbeats 48400000 in
/-- On every device, for any float values, from any memory with zero counters: every weakly fair execution of @main
    terminates with the result buffer at the network's result of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92)
          = Term.result (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v92).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq scopedRefs_eq scopedSems_eq defs main (fun _ => ops) main_eq (fun _ => ops_sub) m ρ)

end Cert.ReferenceIdeal.HandRun

end
-- ==== Proof.LibRowGather.lean ====
/-
  `stablehlo.gather` of WHOLE ROWS of a matrix, read at an index.

  What `x[idx]` lowers to for a matrix `x : [N, C]` and an integer array `idx` of row numbers: a gather whose one offset
  axis is the result's last axis, with collapsed_slice_dims `[0]`, start_index_map `[0]`, slice_sizes `[1, C]` and the
  index vector on the start indices' last axis, of extent one. The operand has two axes. Axis 0 is collapsed and named by
  the start index map: its coordinate is the start index, read as a signed integer and clamped into `[0, N − 1]` (the
  clamp that makes the one-row slice fit), with no batching and no offset part. Axis 1 is the one offset axis: it is not
  in the start index map, so its slice starts at `0`, it is not a batching axis, and its offset coordinate is the
  result's coordinate on the offset axis, that is the result's last coordinate. So result element `(…, k)` is `x` at the
  clamped row and column `k`. Stated for start indices `[R, 1]` with result `[R, C]` (`rowsDims`, `gather_rows_apply`)
  and for start indices `[P, A, 1]` with result `[P, A, C]` (`rowsDims3`, `gather_rows3_apply`).
-/
import Idealize.ShloMosaic.PureOps.Ideal
import Idealize.ShloMosaic.Lib.ValueIdx

noncomputable section

namespace Idealize.ShloMosaic.RowGather

open Idealize.ShloMosaic Idealize.ShloMosaic.ValueIdx

/-- The dimension numbers of a gather of whole rows, for an operand `[N, C]`, start indices `[R, 1]` and result `[R, C]`:
    the result's axis 1 is the offset axis, the operand's axis 0 is collapsed and is the one axis the start index names,
    the index vector is the start indices' axis 1, and a slice is one row, `[1, C]`. Their conditions `wf` are decided on
    a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(r, k)`: the operand at the row `idx[r, 0]`, read signed and clamped into `[0, N − 1]`,
    and column `k`. On the operand's axis 0 the start is the clamped index and the batching and offset parts are zero; on
    its axis 1 the start and the batching part are zero and the offset part is the result's coordinate `k`. -/
theorem gather_rows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N C R wf) x idx (ix2 r k)
      = x (ix2 (⟨min (idx (ix2 r (0 : Fin 1))).toInt.toNat (N - 1), by omega⟩ : Fin N) k) := by
  unfold Host.gather
  congr 1
  funext a
  refine Fin.ext ?_
  match a with
  | ⟨0, _⟩ =>
    show (rowsDims N C R wf).start (ix2 r k) idx 0 + (rowsDims N C R wf).batchCoord (ix2 r k) 0
      + (rowsDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r k) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r k) idx 1 + (rowsDims N C R wf).batchCoord (ix2 r k) 1
      + (rowsDims N C R wf).offCoord (ix2 r k) 1 = k.val
    have hstart : (rowsDims N C R wf).start (ix2 r k) idx 1 = 0 := by
      unfold GatherDims.start
      rw [dif_neg (show (1 : Fin 2) ∉ (rowsDims N C R wf).startIndexMap from
        fun h => absurd (List.mem_singleton.mp h) (show ¬ ((1 : Fin 2) = 0) by decide))]
    have hbatch : (rowsDims N C R wf).batchCoord (ix2 r k) 1 = 0 :=
      GatherDims.batchCoord_eq_zero _ _ _ List.not_mem_nil
    have hoff : (rowsDims N C R wf).offCoord (ix2 r k) 1 = k.val := by
      unfold GatherDims.offCoord
      rw [dif_pos ((GatherDims.mem_sKept _ _).mpr
        ⟨fun h => absurd (List.mem_singleton.mp h) (show ¬ ((1 : Fin 2) = 0) by decide), List.not_mem_nil⟩)]
      rfl
    omega

/-- The dimension numbers of a gather of whole rows, for an operand `[N, C]`, start indices `[P, A, 1]` and result
    `[P, A, C]`: the result's axis 2 is the offset axis, the operand's axis 0 is collapsed and is the one axis the start
    index names, the index vector is the start indices' axis 2, and a slice is one row, `[1, C]`. Their conditions `wf`
    are decided on a program's literal shapes. -/
abbrev rowsDims3 (N C P A : Nat)
    (wf : GatherDims.WF ⟨2, ![N, C]⟩ ⟨3, ![P, A, 1]⟩ ⟨3, ![P, A, C]⟩ [2] [0] [] [0] [] 2 ![1, C]) :
    GatherDims ⟨2, ![N, C]⟩ ⟨3, ![P, A, 1]⟩ ⟨3, ![P, A, C]⟩ where
  offsetDims := [2]
  collapsedSliceDims := [0]
  operandBatchingDims := []
  startIndicesBatchingDims := []
  startIndexMap := [0]
  indexVectorDim := 2
  sliceSizes := ![1, C]
  wf := wf

/-- THE GATHER OF ROWS READ AT `(p, a, k)`: the operand at the row `idx[p, a, 0]`, read signed and clamped into
    `[0, N − 1]`, and column `k`. -/
theorem gather_rows3_apply {α : Type} {N C P A w : Nat} (hN : 0 < N)
    (wf : GatherDims.WF ⟨2, ![N, C]⟩ ⟨3, ![P, A, 1]⟩ ⟨3, ![P, A, C]⟩ [2] [0] [] [0] [] 2 ![1, C])
    (x : (⟨2, ![N, C]⟩ : Shape).Idx → α) (idx : IVec ⟨3, ![P, A, 1]⟩ w) (p : Fin P) (a : Fin A) (k : Fin C) :
    Host.gather (rowsDims3 N C P A wf) x idx (ix3 p a k)
      = x (ix2 (⟨min (idx (ix3 p a (0 : Fin 1))).toInt.toNat (N - 1), by omega⟩ : Fin N) k) := by
  unfold Host.gather
  congr 1
  funext c
  refine Fin.ext ?_
  match c with
  | ⟨0, _⟩ =>
    show (rowsDims3 N C P A wf).start (ix3 p a k) idx 0 + (rowsDims3 N C P A wf).batchCoord (ix3 p a k) 0
      + (rowsDims3 N C P A wf).offCoord (ix3 p a k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N C P A wf).startIndexMap from List.mem_singleton.mpr rfl)]
    have hsi : (rowsDims3 N C P A wf).siIdx (ix3 p a k) ⟨List.idxOf (0 : Fin 2) (rowsDims3 N C P A wf).startIndexMap,
        List.idxOf_lt_length_iff.2 (List.mem_singleton.mpr rfl)⟩ = ix3 p a (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims3 N C P A wf).start (ix3 p a k) idx 1 + (rowsDims3 N C P A wf).batchCoord (ix3 p a k) 1
      + (rowsDims3 N C P A wf).offCoord (ix3 p a k) 1 = k.val
    have hstart : (rowsDims3 N C P A wf).start (ix3 p a k) idx 1 = 0 := by
      unfold GatherDims.start
      rw [dif_neg (show (1 : Fin 2) ∉ (rowsDims3 N C P A wf).startIndexMap from
        fun h => absurd (List.mem_singleton.mp h) (show ¬ ((1 : Fin 2) = 0) by decide))]
    have hbatch : (rowsDims3 N C P A wf).batchCoord (ix3 p a k) 1 = 0 :=
      GatherDims.batchCoord_eq_zero _ _ _ List.not_mem_nil
    have hoff : (rowsDims3 N C P A wf).offCoord (ix3 p a k) 1 = k.val := by
      unfold GatherDims.offCoord
      rw [dif_pos ((GatherDims.mem_sKept _ _).mpr
        ⟨fun h => absurd (List.mem_singleton.mp h) (show ¬ ((1 : Fin 2) = 0) by decide), List.not_mem_nil⟩)]
      rfl
    omega

end Idealize.ShloMosaic.RowGather

end
-- ==== Proof.LibGcnAggregate.lean ====
/-
  Scaling a segment sum of gathered rows by a per-node factor, before or after the sum.

  Nodes are numbered 0 … N − 1 and carry a weight `dis i` that is a nonnegative REAL (as an extended real: `0 ≤ dis i`,
  `dis i ≠ ⊤`).  Edge `e` (of R edges) is aggregated at node `row e` and gathers from node `col e`.  For features
  `h : [N, C]` the two arrangements

      agg₁[i, f] = ∑ over the edges e with row e = i of (dis[row e] · dis[col e]) · h[col e, f]      (weights per edge)
      agg₂[i, f] = dis[i] · ∑ over the edges e with row e = i of (dis · h)[col e, f]                 (weights per node)

  are equal entry by entry WHATEVER `h` holds, infinities included: on the edges of segment `i` the first factor
  `dis[row e]` is the constant `dis[i]`, multiplication of extended reals is associative, and a nonnegative finite factor
  distributes over every finite sum of extended reals.  The statement is over the host's operations: an accumulating
  scatter of whole rows (an update whose start index is outside `[0, N)` is dropped; the index is read signed and not
  clamped), gathers of whole rows and of single entries (the index read signed and CLAMPED into `[0, N − 1]`), and the
  "negative index counts from the end" select in front of a gather, which is the identity on the nonnegative indices a
  segment's edges have.

  Also here: the guarded reciprocal square root `if d > 0 then d^(-1/2) else 0` is a nonnegative real for every
  extended real `d` (`⊤ ↦ 0`), which is what makes `dis` such a weight with no assumption on the degrees.
-/
import Idealize.ShloMosaic.PureOps.Ideal
import Idealize.ShloMosaic.PureOps.Ideal.Laws
import Idealize.ShloMosaic.Lib.ValueIdx
import Idealize.ShloMosaic.Lib.Pipeline.Value
import proofs.«164676_j40578851012868_2_alg».proof.Proof.LibRowGather
import proofs.«164676_j40578851012868_2_alg».proof.Proof.LibRowMax

noncomputable section

namespace Cert.LibGcnAggregate

open Idealize.ShloMosaic Idealize.ShloMosaic.ValueIdx

/-! ## Extended reals -/

/-- A nonnegative finite factor distributes over a finite sum of extended reals, whatever the summands. -/
theorem mul_sum_of_nonneg {ι : Type} (s : Finset ι) (f : ι → EReal) {c : EReal} (hc : 0 ≤ c) (hc' : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-- `if d > 0 then d^(-1/2) else 0` is a nonnegative real, for every extended real `d`. -/
theorem rsqrt_guard (d : EReal) :
    (0 : EReal) ≤ Scalar.select (Ideal.cmp .ogt d 0) (Ideal.rsqrt d) 0
      ∧ Scalar.select (Ideal.cmp .ogt d 0) (Ideal.rsqrt d) (0 : EReal) ≠ ⊤ := by
  show (0 : EReal) ≤ (if BitVec.ofBool (decide ((0 : EReal) < d)) = 1 then Ideal.rsqrt d else 0)
      ∧ (if BitVec.ofBool (decide ((0 : EReal) < d)) = 1 then Ideal.rsqrt d else (0 : EReal)) ≠ ⊤
  by_cases h : (0 : EReal) < d
  · have h1 : BitVec.ofBool (decide ((0 : EReal) < d)) = 1 := by simp [h]
    rw [if_pos h1]
    induction d using EReal.rec with
    | bot => exact absurd h (by simp)
    | top => exact ⟨by rw [Ideal.rsqrt_top], by rw [Ideal.rsqrt_top]; exact EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have h0 : ¬ BitVec.ofBool (decide ((0 : EReal) < d)) = 1 := by simp [h]
    rw [if_neg h0]
    exact ⟨le_refl _, EReal.zero_ne_top⟩

/-- The host's guarded reciprocal square root of an array, `where(deg > 0, rsqrt(deg), 0)`, is a nonnegative real at
    every index. -/
theorem guarded_rsqrt_weight {s : Shape} (deg z : FVec Ideal s .f32) (hz : ∀ i, z i = 0) (i : s.Idx) :
    0 ≤ select (cmpf .ogt deg z) (Host.rsqrt deg) z i ∧ select (cmpf .ogt deg z) (Host.rsqrt deg) z i ≠ ⊤ := by
  show (0 : EReal) ≤ Scalar.select (Ideal.cmp .ogt (deg i) (z i)) (Ideal.rsqrt (deg i)) (z i)
      ∧ Scalar.select (Ideal.cmp .ogt (deg i) (z i)) (Ideal.rsqrt (deg i)) (z i) ≠ ⊤
  rw [hz i]
  exact rsqrt_guard _

/-! ## The host's layout operations read at an index -/

variable {α : Type}

/-- An `[a]` vector placed as the column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a]` vector as a column across `b` lanes reads, at `(p, q)`, the vector at `p`. -/
theorem column_apply {a b : ℕ} (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 x) (ix2 p q) = x (ix1 p) :=
  (Cert.LibRowMax.broadcastInDim_a1_ab_apply _ h2 p q).trans (broadcastInDim_a_a1_apply x h1 p 0)

/-! ## A gather of single entries of a vector -/

/-- The dimension numbers of `x[idx]` for a vector `x : [N]` and start indices `[R, 1]`, result `[R]`: no offset
    axis, the operand's one axis collapsed and named by the start index. -/
abbrev entriesDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather of entries read at `r`: the vector at `idx[r, 0]`, read signed and clamped into `[0, N − 1]`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entriesDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (entriesDims N R wf).start (ix1 r) idx 0 + (entriesDims N R wf).batchCoord (ix1 r) 0
      + (entriesDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entriesDims N R wf).startIndexMap from List.mem_singleton.mpr rfl)]
    have hsi : (entriesDims N R wf).siIdx (ix1 r) ⟨List.idxOf (0 : Fin 1) (entriesDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## An accumulating scatter of whole rows -/

/-- The dimension numbers of `zeros([N, C]).at[idx].add(updates)` for start indices `[R, 1]` and updates `[R, C]`: the
    updates' axis 1 is the window axis, the operand's axis 0 is inserted and is the one axis the start index names. -/
abbrev rowsScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update row `e` that lands on the operand's row `t 0` has start index `t 0`, read signed. -/
theorem scatter_rows_hit {N C R w : Nat} (wf : ScatterDims.WF ⟨2, ![N, C]⟩ ⟨2, ![R, 1]⟩ ⟨2, ![R, C]⟩ [1] [0] [0] 1)
    (idx : IVec ⟨2, ![R, 1]⟩ w) (e : Fin R) (f : Fin C) (t : (⟨2, ![N, C]⟩ : Shape).Idx)
    (h : (rowsScatter N C R wf).resultIdx? (ix2 e f) idx = some t) :
    (idx (ix2 e (0 : Fin 1))).toInt = ((t 0).val : ℤ) := by
  have hs : (rowsScatter N C R wf).start (ix2 e f) idx 0 = (idx (ix2 e (0 : Fin 1))).toInt := by
    unfold ScatterDims.start
    rw [dif_pos (show (0 : Fin 2) ∈ (rowsScatter N C R wf).scatterDimsToOperandDims from List.mem_singleton.mpr rfl)]
    have hsi : (rowsScatter N C R wf).siIdx (ix2 e f) ⟨List.idxOf (0 : Fin 2) (rowsScatter N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowsScatter N C R wf).window (ix2 e f) 0 = 0 := by
    unfold ScatterDims.window
    rw [dif_neg]
    intro hmem
    have := (List.mem_filter.mp hmem).2
    simp at this
  unfold ScatterDims.resultIdx? at h
  split at h
  · rename_i hall
    have ht := Option.some.inj h
    have h0 : ((rowsScatter N C R wf).start (ix2 e f) idx 0 + ((rowsScatter N C R wf).window (ix2 e f) 0 : ℤ)).toNat
        = (t 0).val := congrArg Fin.val (congrFun ht 0)
    have hpos := (hall 0).1
    rw [hs, hw] at h0 hpos
    omega
  · exact absurd h (by simp)

/-- An accumulating scatter into zeros, entry `t`: if every update that lands on `t` is `c` times the matching update
    of a second scatter, `c` a nonnegative real, then the entry is `c` times the second scatter's entry. -/
theorem scatterAdd_scaled {s si su : Shape} (d : ScatterDims s si su) {w : Nat} (idx : IVec si w)
    (A B : su.Idx → EReal) (t : s.Idx) {c : EReal} (hc : 0 ≤ c) (hc' : c ≠ ⊤)
    (hAB : ∀ u, d.resultIdx? u idx = some t → A u = c * B u) :
    Ideal.hostScatterAdd d (fun _ => 0) idx A t = c * Ideal.hostScatterAdd d (fun _ => 0) idx B t := by
  unfold Ideal.hostScatterAdd
  rw [zero_add, zero_add, mul_sum_of_nonneg _ _ hc hc']
  exact Finset.sum_congr rfl fun u hu => hAB u (Finset.mem_filter.mp hu).2

/-- A start index that is a node number, read signed and clamped into `[0, N − 1]`, is that node. -/
theorem clamp_eq {N : ℕ} (b : BitVec 32) (i : Fin N) (hb : b.toInt = (i.val : ℤ))
    (hlt : min b.toInt.toNat (N - 1) < N) : (⟨min b.toInt.toNat (N - 1), hlt⟩ : Fin N) = i := by
  apply Fin.ext
  show min b.toInt.toNat (N - 1) = i.val
  rw [hb]
  have := i.isLt
  omega

/-! ## The two arrangements of the aggregation -/

section Aggregate

variable {N C R : ℕ}

/-- THE AGGREGATION, WEIGHTED PER EDGE OR PER NODE.  `dis` a nonnegative real weight per node; `row` the node each edge
    is aggregated at (used as it is by the scatter; in front of the gather of `dis` it passes the select that replaces
    a negative index by `X`, which no edge of a segment meets); `colw` the start indices every gather by column uses.
    Scattering the rows `(dis[row e] · dis[col e]) · h[col e, ·]` is, entry by entry, `dis[i]` times scattering the rows
    `(dis · h)[col e, ·]`. -/
theorem aggregate_eq (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (wfe : GatherDims.WF ⟨1, ![N]⟩ ⟨2, ![R, 1]⟩ ⟨1, ![R]⟩ [] [0] [] [0] [] 1 ![1])
    (hb0 : (⟨0, ![]⟩ : Shape).BroadcastsInDim ⟨2, ![N, C]⟩ ![])
    (hbz : (⟨0, ![]⟩ : Shape).BroadcastsInDim ⟨1, ![R]⟩ ![])
    (hbR : (⟨1, ![R]⟩ : Shape).BroadcastsInDim ⟨2, ![R, 1]⟩ ![0])
    (hbRC : (⟨2, ![R, 1]⟩ : Shape).BroadcastsInDim ⟨2, ![R, C]⟩ ![0, 1])
    (hbN : (⟨1, ![N]⟩ : Shape).BroadcastsInDim ⟨2, ![N, 1]⟩ ![0])
    (hbNC : (⟨2, ![N, 1]⟩ : Shape).BroadcastsInDim ⟨2, ![N, C]⟩ ![0, 1])
    (dis : FVec Ideal ⟨1, ![N]⟩ .f32) (hdis : ∀ i, 0 ≤ dis i ∧ dis i ≠ ⊤)
    (row X : IVec ⟨1, ![R]⟩ 32) (colw : IVec ⟨2, ![R, 1]⟩ 32) (h : FVec Ideal ⟨2, ![N, C]⟩ .f32) :
    Host.scatterAdd (F := Ideal) (rowsScatter N C R wfs)
        (broadcastInDim ⟨2, ![N, C]⟩ ![] hb0 (constant ⟨0, ![]⟩ .f32 0x00000000#32))
        (broadcastInDim ⟨2, ![R, 1]⟩ ![0] hbR row)
        (mulf
          (broadcastInDim ⟨2, ![R, C]⟩ ![0, 1] hbRC
            (broadcastInDim ⟨2, ![R, 1]⟩ ![0] hbR
              (mulf
                (Host.gather (entriesDims N R wfe) dis
                  (broadcastInDim ⟨2, ![R, 1]⟩ ![0] hbR
                    (select (cmpi .slt row (broadcastInDim ⟨1, ![R]⟩ ![] hbz (constantI ⟨0, ![]⟩ 32 0#32))) X row)))
                (Host.gather (entriesDims N R wfe) dis colw))))
          (Host.gather (Idealize.ShloMosaic.RowGather.rowsDims N C R wfg) h colw))
      = mulf (broadcastInDim ⟨2, ![N, C]⟩ ![0, 1] hbNC (broadcastInDim ⟨2, ![N, 1]⟩ ![0] hbN dis))
          (Host.scatterAdd (F := Ideal) (rowsScatter N C R wfs)
            (broadcastInDim ⟨2, ![N, C]⟩ ![] hb0 (constant ⟨0, ![]⟩ .f32 0x00000000#32))
            (broadcastInDim ⟨2, ![R, 1]⟩ ![0] hbR row)
            (Host.gather (Idealize.ShloMosaic.RowGather.rowsDims N C R wfg)
              (mulf (broadcastInDim ⟨2, ![N, C]⟩ ![0, 1] hbNC (broadcastInDim ⟨2, ![N, 1]⟩ ![0] hbN dis)) h) colw)) := by
  funext j
  obtain ⟨i, f, rfl⟩ : ∃ (i : Fin N) (f : Fin C), j = ix2 i f := ⟨j 0, j 1, eq_ix2 j⟩
  have hz : (broadcastInDim ⟨2, ![N, C]⟩ ![] hb0 (constant (F := Ideal) ⟨0, ![]⟩ .f32 0x00000000#32))
      = fun _ => (0 : EReal) := funext fun _ => Ideal.ofBits_zero_f32
  rw [hz]
  show Ideal.hostScatterAdd (rowsScatter N C R wfs) (fun _ => 0) _ _ (ix2 i f)
    = (broadcastInDim ⟨2, ![N, C]⟩ ![0, 1] hbNC (broadcastInDim ⟨2, ![N, 1]⟩ ![0] hbN dis)) (ix2 i f)
      * Ideal.hostScatterAdd (rowsScatter N C R wfs) (fun _ => 0) _ _ (ix2 i f)
  rw [column_apply dis hbN hbNC i f]
  refine scatterAdd_scaled _ _ _ _ _ (hdis _).1 (hdis _).2 fun u hu => ?_
  obtain ⟨e, g, rfl⟩ : ∃ (e : Fin R) (g : Fin C), u = ix2 e g := ⟨u 0, u 1, eq_ix2 u⟩
  -- the segment's node is the edge's row, read signed
  have hrow : (row (ix1 e)).toInt = (i.val : ℤ) := by
    have := scatter_rows_hit wfs _ e g _ hu
    rwa [broadcastInDim_a_a1_apply row hbR e 0] at this
  -- so the negative-index select keeps it, and the clamp keeps it
  have hsel : (select (cmpi .slt row (broadcastInDim ⟨1, ![R]⟩ ![] hbz (constantI ⟨0, ![]⟩ 32 0#32))) X row) (ix1 e)
      = row (ix1 e) := by
    show Scalar.select (BitVec.ofBool ((row (ix1 e)).slt 0#32)) (X (ix1 e)) (row (ix1 e)) = row (ix1 e)
    have hns : (row (ix1 e)).slt 0#32 = false := by
      rw [BitVec.slt_eq_decide, BitVec.toInt_zero, hrow]
      exact decide_eq_false (by omega)
    rw [hns]
    rfl
  show _ * _ = _ * _
  rw [Cert.LibRowMax.broadcastInDim_a1_ab_apply _ hbRC e g, broadcastInDim_a_a1_apply _ hbR e 0,
    Idealize.ShloMosaic.RowGather.gather_rows_apply hN wfg h colw e g,
    Idealize.ShloMosaic.RowGather.gather_rows_apply hN wfg _ colw e g]
  show (_ * _) * _ = _ * (_ * _)
  rw [gather_entries_apply hN wfe dis _ e, gather_entries_apply hN wfe dis colw e, column_apply dis hbN hbNC]
  have hval : ((broadcastInDim ⟨2, ![R, 1]⟩ ![0] hbR
      (select (cmpi .slt row (broadcastInDim ⟨1, ![R]⟩ ![] hbz (constantI ⟨0, ![]⟩ 32 0#32))) X row))
        (ix2 e (0 : Fin 1))).toInt = (i.val : ℤ) := by
    rw [broadcastInDim_a_a1_apply _ hbR e 0, hsel]; exact hrow
  rw [clamp_eq _ i hval]
  exact mul_assoc _ _ _

end Aggregate

end Cert.LibGcnAggregate

end
-- ==== Proof.LibSegmentScale.lean ====
/-
  Scaling a segment sum of gathered rows by a per-node factor, before the gather or per edge — the arrangement in which
  the per-edge weight multiplies the gathered row from the RIGHT and is the product (weight of the start node) · (weight
  of the end node), in that order.

  Nodes 0 … N − 1 carry a weight `dis i` that is a nonnegative REAL. Edge e (of R) is aggregated at node `row e` (the
  scatter's start index, read signed, an update outside [0, N) dropped) and gathers rows at the start indices `colw`
  (read signed and clamped into [0, N − 1]); the end node's weight is gathered at start indices `roww` of which only
  this is used: on an edge aggregated at node i they name i. For features h : [N, C], entry by entry and whatever h
  holds (infinities included),

      Σ over the edges e aggregated at i of  h[colw e, f] · (dis[colw e] · dis[roww e])
        =  dis[i] · Σ over the same edges of  (h · dis)[colw e, f] :

  on those edges dis[roww e] is the constant dis[i], the product of extended reals is commutative and associative, and
  a nonnegative finite factor distributes over every finite sum of extended reals.
-/
import proofs.«164676_j40578851012868_2_alg».proof.Proof.LibGcnAggregate
import proofs.«164676_j40578851012868_2_alg».proof.Proof.LibRowMax
import Idealize.ShloMosaic.Lib.ValueLayout

noncomputable section

namespace Cert.LibSegmentScale

open Idealize.ShloMosaic Idealize.ShloMosaic.ValueIdx Cert.LibGcnAggregate

section Segment

variable {N C R : ℕ}

/-- THE SEGMENT LAW. `dis` a nonnegative real weight per node; `row` the node each edge is aggregated at, as the scatter
    reads it; `colw` the start indices every gather by start node uses; `roww` the start indices the gather of the end
    node's weight uses, which on an edge aggregated at node `i` name `i` itself (`hroww`). At node `i`, feature `f`, the
    sum of the gathered rows weighted per edge by `dis[start] · dis[end]` is `dis[i]` times the sum of the rows scaled by
    `dis` before the gather. -/
theorem segment_law (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (wfe : GatherDims.WF ⟨1, ![N]⟩ ⟨2, ![R, 1]⟩ ⟨1, ![R]⟩ [] [0] [] [0] [] 1 ![1])
    (hb0 : (⟨0, ![]⟩ : Shape).BroadcastsInDim ⟨2, ![N, C]⟩ ![])
    (hbR : (⟨1, ![R]⟩ : Shape).BroadcastsInDim ⟨2, ![R, 1]⟩ ![0])
    (hbRC : (⟨2, ![R, 1]⟩ : Shape).BroadcastsInDim ⟨2, ![R, C]⟩ ![0, 1])
    (dis : FVec Ideal ⟨1, ![N]⟩ .f32) (hdis : ∀ i, 0 ≤ dis i ∧ dis i ≠ ⊤)
    (row : IVec ⟨1, ![R]⟩ 32) (colw roww : IVec ⟨2, ![R, 1]⟩ 32)
    (hroww : ∀ (e : Fin R) (i : Fin N), (row (ix1 e)).toInt = (i.val : ℤ) → (roww (ix2 e (0 : Fin 1))).toInt = (i.val : ℤ))
    (h : FVec Ideal ⟨2, ![N, C]⟩ .f32) (i : Fin N) (f : Fin C) :
    Host.scatterAdd (F := Ideal) (rowsScatter N C R wfs)
        (broadcastInDim ⟨2, ![N, C]⟩ ![] hb0 (constant ⟨0, ![]⟩ .f32 0x00000000#32))
        (broadcastInDim ⟨2, ![R, 1]⟩ ![0] hbR row)
        (mulf (Host.gather (Idealize.ShloMosaic.RowGather.rowsDims N C R wfg) h colw)
          (broadcastInDim ⟨2, ![R, C]⟩ ![0, 1] hbRC
            (broadcastInDim ⟨2, ![R, 1]⟩ ![0] hbR
              (mulf (Host.gather (entriesDims N R wfe) dis colw) (Host.gather (entriesDims N R wfe) dis roww))))) (ix2 i f)
      = dis (ix1 i) * Host.scatterAdd (F := Ideal) (rowsScatter N C R wfs)
          (broadcastInDim ⟨2, ![N, C]⟩ ![] hb0 (constant ⟨0, ![]⟩ .f32 0x00000000#32))
          (broadcastInDim ⟨2, ![R, 1]⟩ ![0] hbR row)
          (Host.gather (Idealize.ShloMosaic.RowGather.rowsDims N C R wfg) (fun j => h j * dis (ix1 (j 0))) colw) (ix2 i f) := by
  have hzero : (broadcastInDim ⟨2, ![N, C]⟩ ![] hb0 (constant (F := Ideal) ⟨0, ![]⟩ .f32 0x00000000#32))
      = fun _ => (0 : EReal) := funext fun _ => Ideal.ofBits_zero_f32
  rw [hzero]
  show Ideal.hostScatterAdd (rowsScatter N C R wfs) (fun _ => 0) _ _ (ix2 i f)
    = dis (ix1 i) * Ideal.hostScatterAdd (rowsScatter N C R wfs) (fun _ => 0) _ _ (ix2 i f)
  refine scatterAdd_scaled _ _ _ _ _ (hdis _).1 (hdis _).2 fun u hu => ?_
  obtain ⟨e, g, rfl⟩ : ∃ (e : Fin R) (g : Fin C), u = ix2 e g := ⟨u 0, u 1, eq_ix2 u⟩
  -- the segment's node is the edge's end node, read signed
  have hrow : (row (ix1 e)).toInt = (i.val : ℤ) := by
    have := scatter_rows_hit wfs _ e g _ hu
    rw [broadcastInDim_a_a1_apply row hbR e 0] at this
    exact this
  have hval : (roww (ix2 e (0 : Fin 1))).toInt = (i.val : ℤ) := hroww e i hrow
  -- the gathers, each at its clamped start index
  show _ * _ = _ * _
  rw [Idealize.ShloMosaic.RowGather.gather_rows_apply hN wfg h colw e g,
    Idealize.ShloMosaic.RowGather.gather_rows_apply hN wfg (fun j => h j * dis (ix1 (j 0))) colw e g,
    Cert.LibRowMax.broadcastInDim_a1_ab_apply _ hbRC e g, broadcastInDim_a_a1_apply _ hbR e 0]
  show _ * (_ * _) = _ * (_ * _)
  rw [gather_entries_apply hN wfe dis colw e, gather_entries_apply hN wfe dis roww e, clamp_eq _ i hval]
  show _ * (_ * dis (ix1 i)) = dis (ix1 i) * (_ * _)
  rw [mul_comm (dis (ix1 i)), mul_assoc]
  rfl

end Segment

end Cert.LibSegmentScale

end
-- ==== Proof.LibDense.lean ====
/-
  An affine layer followed by a clamp at zero, read at an entry given by its coordinates, for any extents:
  `max (Σ_e x_{p e} · W_{e q} + β_q) 0`, on the extended reals, in the two spellings programs print.

  * The vector unit's: a plain product `[a, k] × [k, b]` into a zero accumulator, plus a `[1, b]` row broadcast down the
    rows, then the maximum with a splat of the zero word (`vector_dense_apply`).
  * The host's: a plain `dot_general`, plus a `[b]` vector placed as a row and broadcast down the rows, then the
    maximum with the zero word broadcast from a scalar (`host_dense_apply`).
  Neither needs any finiteness: nothing is rearranged.
-/
import proofs.«164676_j40578851012868_2_alg».proof.Proof.LibRowMax
import Idealize.ShloMosaic.Lib.ValueLayout
import Idealize.ShloMosaic.Lib.Pipeline.Value
import Idealize.ShloMosaic.PureOps.Ideal.Laws

noncomputable section

namespace Cert.LibDense

open Idealize.ShloMosaic Idealize.ShloMosaic.ValueIdx Cert.LibRowMax

variable {a k b : ℕ} {φ₁ φ₂ : FTy}

/-- The vector unit's affine layer with clamp, at `(p, q)`. The weight matrix and the bias row come through identity
    casts, as a kernel body loads them. -/
theorem vector_dense_apply (D : DotDims ⟨2, ![a, k]⟩ ⟨2, ![k, b]⟩ ⟨2, ![a, b]⟩)
    (wf : DotDims.WF ⟨2, ![a, k]⟩ ⟨2, ![k, b]⟩ ⟨2, ![a, b]⟩ [1] [0] [0] [1] [] []) (hD : D = plainDims a k b wf)
    (x : FVec Ideal ⟨2, ![a, k]⟩ φ₁) (W : FVec Ideal ⟨2, ![k, b]⟩ φ₂) (β : FVec Ideal ⟨2, ![1, b]⟩ .f32)
    (hW : (⟨2, ![k, b]⟩ : Shape).ShapeCasts ⟨2, ![k, b]⟩) (hβ : (⟨2, ![1, b]⟩ : Shape).ShapeCasts ⟨2, ![1, b]⟩)
    (hbc : (⟨2, ![1, b]⟩ : Shape).Broadcasts ⟨2, ![a, b]⟩) (p : Fin a) (q : Fin b) :
    maximumf (addf (matmul D none x (shapeCast ⟨2, ![k, b]⟩ W hW) (constant ⟨2, ![a, b]⟩ .f32 0x00000000#32))
        (broadcastTo ⟨2, ![a, b]⟩ (shapeCast ⟨2, ![1, b]⟩ β hβ) hbc))
      (broadcast ⟨2, ![a, b]⟩ (Scalar.ofBits (F := Ideal) .f32 0x00000000#32)) (ix2 p q)
    = max (∑ e : Fin k, x (ix2 p e) * W (ix2 e q) + β (ix2 (0 : Fin 1) q)) (Ideal.ofBits .f32 0x00000000#32) := by
  subst hD
  rw [shapeCast_self, shapeCast_self]
  show max (FloatOps.matmul (plainDims a k b wf) none x W (constant ⟨2, ![a, b]⟩ .f32 0x00000000#32) (ix2 p q)
      + broadcastTo ⟨2, ![a, b]⟩ β hbc (ix2 p q)) (Ideal.ofBits .f32 0x00000000#32) = _
  rw [matmul_plain_apply wf none x W p q, broadcastTo_1b_ab_apply β hbc p q]

/-- The host's affine layer with clamp, at `(p, q)`. -/
theorem host_dense_apply (D : DotDims ⟨2, ![a, k]⟩ ⟨2, ![k, b]⟩ ⟨2, ![a, b]⟩)
    (wf : DotDims.WF ⟨2, ![a, k]⟩ ⟨2, ![k, b]⟩ ⟨2, ![a, b]⟩ [1] [0] [0] [1] [] []) (hD : D = plainDims a k b wf)
    (x : FVec Ideal ⟨2, ![a, k]⟩ φ₁) (W : FVec Ideal ⟨2, ![k, b]⟩ φ₂) (β : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1])
    (h0 : (⟨0, ![]⟩ : Shape).BroadcastsInDim ⟨2, ![a, b]⟩ ![]) (p : Fin a) (q : Fin b) :
    maximumf (addf (Host.dotGeneral D none x W)
        (broadcastInDim ⟨2, ![a, b]⟩ ![0, 1] h2 (broadcastInDim ⟨2, ![1, b]⟩ ![1] h1 β)))
      (broadcastInDim ⟨2, ![a, b]⟩ ![] h0 (constant (F := Ideal) ⟨0, ![]⟩ .f32 0x00000000#32)) (ix2 p q)
    = max (∑ e : Fin k, x (ix2 p e) * W (ix2 e q) + β (ix1 q)) (Ideal.ofBits .f32 0x00000000#32) := by
  subst hD
  have hz : broadcastInDim ⟨2, ![a, b]⟩ ![] h0 (constant (F := Ideal) ⟨0, ![]⟩ .f32 0x00000000#32) (ix2 p q)
      = Ideal.ofBits .f32 0x00000000#32 :=
    broadcastInDim_apply _ h0 _ (ix2 p q) ix0 (fun ax => ax.elim0)
  show max (FloatOps.dotGeneral (plainDims a k b wf) none _ x W (ix2 p q)
      + broadcastInDim ⟨2, ![a, b]⟩ ![0, 1] h2 (broadcastInDim ⟨2, ![1, b]⟩ ![1] h1 β) (ix2 p q))
      (broadcastInDim ⟨2, ![a, b]⟩ ![] h0 (constant (F := Ideal) ⟨0, ![]⟩ .f32 0x00000000#32) (ix2 p q)) = _
  rw [hz, dotGeneral_plain_apply wf none _ x W p q, broadcastInDim_1b_ab_apply _ h2 p q,
    broadcastInDim_b_1b_apply β h1 (0 : Fin 1) q]

end Cert.LibDense

end
-- ==== Proof.LibScatterEdges.lean ====
/-
  The accumulating scatter of whole rows into zeros, read entry by entry.

  The operand is `zeros([N, C])`, the start indices are one row number per edge (`[R, 1]`, read signed and not
  clamped) and the updates are one row of `C` features per edge (`[R, C]`).  Update element `(e, g)` lands on
  operand element `(idx[e, 0], g)` when that row number is in `[0, N)`, and is dropped otherwise: on the operand's
  row axis the start is the edge's index and the window coordinate is `0`; on the feature axis the start is `0` and
  the window coordinate is `g`.  So update `(e, g)` lands on `(i, f)` exactly when `idx[e, 0] = i` and `g = f`,
  and entry `(i, f)` of the result is the sum, over the edges whose start index reads `i`, of the update at `(e, f)`.
-/
import proofs.«164676_j40578851012868_2_alg».proof.Proof.LibGcnAggregate

noncomputable section

namespace Cert.Sgc.ScatterEdges

open Idealize.ShloMosaic Idealize.ShloMosaic.ValueIdx Cert.LibGcnAggregate

variable {N C R w : ℕ}

/-- On the operand's row axis the window of update `(e, g)` starts at the edge's start index, read signed. -/
theorem start_row (wf : ScatterDims.WF ⟨2, ![N, C]⟩ ⟨2, ![R, 1]⟩ ⟨2, ![R, C]⟩ [1] [0] [0] 1)
    (idx : IVec ⟨2, ![R, 1]⟩ w) (e : Fin R) (g : Fin C) :
    (rowsScatter N C R wf).start (ix2 e g) idx 0 = (idx (ix2 e (0 : Fin 1))).toInt := by
  unfold ScatterDims.start
  rw [dif_pos (show (0 : Fin 2) ∈ (rowsScatter N C R wf).scatterDimsToOperandDims from List.mem_singleton.mpr rfl)]
  have hsi : (rowsScatter N C R wf).siIdx (ix2 e g) ⟨List.idxOf (0 : Fin 2) (rowsScatter N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the feature axis, which the start index does not name, the window starts at `0`. -/
theorem start_col (wf : ScatterDims.WF ⟨2, ![N, C]⟩ ⟨2, ![R, 1]⟩ ⟨2, ![R, C]⟩ [1] [0] [0] 1)
    (idx : IVec ⟨2, ![R, 1]⟩ w) (e : Fin R) (g : Fin C) :
    (rowsScatter N C R wf).start (ix2 e g) idx 1 = 0 := by
  unfold ScatterDims.start
  rw [dif_neg (show (1 : Fin 2) ∉ (rowsScatter N C R wf).scatterDimsToOperandDims from
    fun h => absurd (List.mem_singleton.mp h) (show ¬ ((1 : Fin 2) = 0) by decide))]

/-- The row axis is an inserted window axis: its window coordinate is `0`. -/
theorem window_row (wf : ScatterDims.WF ⟨2, ![N, C]⟩ ⟨2, ![R, 1]⟩ ⟨2, ![R, C]⟩ [1] [0] [0] 1)
    (e : Fin R) (g : Fin C) : (rowsScatter N C R wf).window (ix2 e g) 0 = 0 := by
  unfold ScatterDims.window
  rw [dif_neg]
  intro hmem
  have := (List.mem_filter.mp hmem).2
  simp at this

/-- The feature axis is the operand's one kept axis: its window coordinate is the update's feature coordinate. -/
theorem window_col (wf : ScatterDims.WF ⟨2, ![N, C]⟩ ⟨2, ![R, 1]⟩ ⟨2, ![R, C]⟩ [1] [0] [0] 1)
    (e : Fin R) (g : Fin C) : (rowsScatter N C R wf).window (ix2 e g) 1 = g.val := by
  unfold ScatterDims.window
  have hmem : (1 : Fin 2) ∈ (rowsScatter N C R wf).sKept := by
    refine List.mem_filter.mpr ⟨List.mem_finRange _, ?_⟩
    simp
  rw [dif_pos hmem]
  rfl

/-- WHERE AN UPDATE LANDS.  Update `(e, g)` lands on operand element `(i, f)` exactly when the edge's start index,
    read signed, is the row `i`, and the feature coordinates agree. -/
theorem resultIdx_eq_some_iff (wf : ScatterDims.WF ⟨2, ![N, C]⟩ ⟨2, ![R, 1]⟩ ⟨2, ![R, C]⟩ [1] [0] [0] 1)
    (idx : IVec ⟨2, ![R, 1]⟩ w) (e : Fin R) (g : Fin C) (i : Fin N) (f : Fin C) :
    (rowsScatter N C R wf).resultIdx? (ix2 e g) idx = some (ix2 i f)
      ↔ (idx (ix2 e (0 : Fin 1))).toInt = (i.val : ℤ) ∧ g = f := by
  have hs0 := start_row wf idx e g
  have hs1 := start_col wf idx e g
  have hw0 := window_row wf e g
  have hw1 := window_col wf e g
  constructor
  · intro h
    unfold ScatterDims.resultIdx? at h
    split at h
    · rename_i hall
      have ht := Option.some.inj h
      have h0 : ((rowsScatter N C R wf).start (ix2 e g) idx 0
          + ((rowsScatter N C R wf).window (ix2 e g) 0 : ℤ)).toNat = i.val := congrArg Fin.val (congrFun ht 0)
      have h1 : ((rowsScatter N C R wf).start (ix2 e g) idx 1
          + ((rowsScatter N C R wf).window (ix2 e g) 1 : ℤ)).toNat = f.val := congrArg Fin.val (congrFun ht 1)
      have hpos := (hall 0).1
      rw [hs0, hw0] at h0 hpos
      rw [hs1, hw1] at h1
      refine ⟨by omega, Fin.ext ?_⟩
      omega
    · exact absurd h (by simp)
  · rintro ⟨hi, rfl⟩
    have hall : ∀ a, 0 ≤ (rowsScatter N C R wf).start (ix2 e g) idx a + ((rowsScatter N C R wf).window (ix2 e g) a : ℤ)
        ∧ (rowsScatter N C R wf).start (ix2 e g) idx a + ((rowsScatter N C R wf).window (ix2 e g) a : ℤ)
          < ((⟨2, ![N, C]⟩ : Shape).size a : ℤ) := by
      intro a
      match a with
      | ⟨0, _⟩ =>
        show 0 ≤ (rowsScatter N C R wf).start (ix2 e g) idx 0 + ((rowsScatter N C R wf).window (ix2 e g) 0 : ℤ)
          ∧ (rowsScatter N C R wf).start (ix2 e g) idx 0 + ((rowsScatter N C R wf).window (ix2 e g) 0 : ℤ) < (N : ℤ)
        rw [hs0, hw0, hi]
        have := i.isLt
        omega
      | ⟨1, _⟩ =>
        show 0 ≤ (rowsScatter N C R wf).start (ix2 e g) idx 1 + ((rowsScatter N C R wf).window (ix2 e g) 1 : ℤ)
          ∧ (rowsScatter N C R wf).start (ix2 e g) idx 1 + ((rowsScatter N C R wf).window (ix2 e g) 1 : ℤ) < (C : ℤ)
        rw [hs1, hw1]
        have := g.isLt
        omega
    unfold ScatterDims.resultIdx?
    rw [dif_pos hall]
    congr 1
    funext a
    refine Fin.ext ?_
    match a with
    | ⟨0, _⟩ =>
      show ((rowsScatter N C R wf).start (ix2 e g) idx 0
          + ((rowsScatter N C R wf).window (ix2 e g) 0 : ℤ)).toNat = i.val
      rw [hs0, hw0, hi]
      omega
    | ⟨1, _⟩ =>
      show ((rowsScatter N C R wf).start (ix2 e g) idx 1
          + ((rowsScatter N C R wf).window (ix2 e g) 1 : ℤ)).toNat = g.val
      rw [hs1, hw1]
      omega

/-- THE SCATTER READ AT `(i, f)`: the sum, over the edges whose start index reads `i`, of the update at `(e, f)`. -/
theorem scatter_rows_entry (wf : ScatterDims.WF ⟨2, ![N, C]⟩ ⟨2, ![R, 1]⟩ ⟨2, ![R, C]⟩ [1] [0] [0] 1)
    (idx : IVec ⟨2, ![R, 1]⟩ w) (upd : (⟨2, ![R, C]⟩ : Shape).Idx → EReal) (i : Fin N) (f : Fin C) :
    Ideal.hostScatterAdd (rowsScatter N C R wf) (fun _ => 0) idx upd (ix2 i f)
      = 0 + ∑ e ∈ Finset.univ.filter (fun e : Fin R => (idx (ix2 e (0 : Fin 1))).toInt = (i.val : ℤ)),
          upd (ix2 e f) := by
  unfold Ideal.hostScatterAdd
  congr 1
  refine Finset.sum_nbij' (fun u => u 0) (fun e => ix2 e f) ?_ ?_ ?_ ?_ ?_
  · intro u hu
    have hu' := (Finset.mem_filter.mp hu).2
    rw [eq_ix2 u] at hu'
    exact Finset.mem_filter.mpr ⟨Finset.mem_univ _, ((resultIdx_eq_some_iff wf idx _ _ i f).mp hu').1⟩
  · intro e he
    have he' := (Finset.mem_filter.mp he).2
    exact Finset.mem_filter.mpr ⟨Finset.mem_univ _, (resultIdx_eq_some_iff wf idx e f i f).mpr ⟨he', rfl⟩⟩
  · intro u hu
    have hu' := (Finset.mem_filter.mp hu).2
    rw [eq_ix2 u] at hu'
    have hg := ((resultIdx_eq_some_iff wf idx _ _ i f).mp hu').2
    show ix2 (u 0) f = u
    rw [← hg]
    exact (eq_ix2 u).symm
  · intro e _
    rfl
  · intro u hu
    have hu' := (Finset.mem_filter.mp hu).2
    rw [eq_ix2 u] at hu'
    have hg := ((resultIdx_eq_some_iff wf idx _ _ i f).mp hu').2
    show upd u = upd (ix2 (u 0) f)
    rw [← hg]
    exact congrArg upd (eq_ix2 u)

end Cert.Sgc.ScatterEdges

end
-- ==== Proof.LibFeatureFold.lean ====
/-
  The nine-feature fold. For real data, the contraction of the masked feature vector
  [x, y, z, e, x - cx, y - cy, cx, cy, zc] with nine real weights equals the mask times a five-term
  combination with folded weights (w0 + w4, w1 + w5, w6 - w4, w7 - w5) plus a per-pillar offset; both
  are the same real number. Also: extended reals that are reals are closed under +, -, *, negation,
  max, min and finite sums, and the coercion of a finite real sum is the sum of the coercions.
-/
import Idealize.ShloMosaic.PureOps.Ideal
import Mathlib.Algebra.BigOperators.Fin
import Mathlib.Tactic.Ring

noncomputable section

namespace Cert.Lib.FeatureFold

open Idealize.ShloMosaic

/-! ### Extended reals that are reals -/

/-- An extended real that is (the coercion of) a real. -/
def IsReal (a : EReal) : Prop := ∃ r : ℝ, a = (r : EReal)

theorem isReal_coe (r : ℝ) : IsReal (r : EReal) := ⟨r, rfl⟩

theorem isReal_zero : IsReal 0 := ⟨0, rfl⟩

theorem isReal_one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_choice a b with h | h <;> rw [h] <;> assumption

theorem IsReal.min {a b : EReal} (ha : IsReal a) (hb : IsReal b) : IsReal (min a b) := by
  rcases min_choice a b with h | h <;> rw [h] <;> assumption

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- Division of a real by a nonzero real is a real. -/
theorem IsReal.div_coe {a : EReal} (ha : IsReal a) {n : ℝ} (hn : n ≠ 0) : IsReal (Ideal.div a (n : EReal)) := by
  rw [Ideal.div_coe hn]; exact ha.mul (isReal_coe _)

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A contraction of two real vectors, read on the extended reals, is the real contraction. -/
theorem coe_sum_mul {ι : Type*} (s : Finset ι) (f g : ι → ℝ) :
    (∑ i ∈ s, (f i : EReal) * (g i : EReal)) = ((∑ i ∈ s, f i * g i : ℝ) : EReal) := by
  simp only [← EReal.coe_mul, ← coe_sum]

/-! ### The fold -/

/-- A sum over nine indices, written out. -/
theorem sum_fin9 {M : Type*} [AddCommMonoid M] (g : Fin 9 → M) :
    ∑ i, g i = g 0 + g 1 + g 2 + g 3 + g 4 + g 5 + g 6 + g 7 + g 8 := by
  rw [Fin.sum_univ_castSucc, Fin.sum_univ_eight]
  rfl

/-- The folded form as a real: mask times (five folded terms plus the per-pillar offset). -/
def foldR (x y z e cx cy zc mk : ℝ) (w : Fin 9 → ℝ) : ℝ :=
  mk * ((((x * (w 0 + w 4) + y * (w 1 + w 5)) + z * w 2) + e * w 3)
    + ((cx * (w 6 - w 4) + cy * (w 7 - w 5)) + zc * w 8))

/-- The nine-term contraction of the masked features with the weights, over the reals. -/
theorem concat_real (x y z e cx cy zc mk : ℝ) (w : Fin 9 → ℝ) :
    (∑ i : Fin 9, ((![x, y, z, e, x - cx, y - cy, cx, cy, zc] : Fin 9 → ℝ) i * mk) * w i)
      = foldR x y z e cx cy zc mk w := by
  rw [sum_fin9]
  show (x * mk) * w 0 + (y * mk) * w 1 + (z * mk) * w 2 + (e * mk) * w 3 + ((x - cx) * mk) * w 4
      + ((y - cy) * mk) * w 5 + (cx * mk) * w 6 + (cy * mk) * w 7 + (zc * mk) * w 8 = _
  unfold foldR
  ring

/-- The nine-term contraction on the extended reals is the real folded value. -/
theorem concat_ereal (x y z e cx cy zc mk : ℝ) (w : Fin 9 → ℝ) :
    (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal))
      = ((foldR x y z e cx cy zc mk w : ℝ) : EReal) := by
  rw [sum_fin9]
  show ((x : EReal) * (mk : EReal)) * (w 0 : EReal) + ((y : EReal) * (mk : EReal)) * (w 1 : EReal)
      + ((z : EReal) * (mk : EReal)) * (w 2 : EReal) + ((e : EReal) * (mk : EReal)) * (w 3 : EReal)
      + (((x : EReal) - (cx : EReal)) * (mk : EReal)) * (w 4 : EReal)
      + (((y : EReal) - (cy : EReal)) * (mk : EReal)) * (w 5 : EReal)
      + ((cx : EReal) * (mk : EReal)) * (w 6 : EReal) + ((cy : EReal) * (mk : EReal)) * (w 7 : EReal)
      + ((zc : EReal) * (mk : EReal)) * (w 8 : EReal) = _
  simp only [← EReal.coe_mul, ← EReal.coe_add, ← EReal.coe_sub]
  exact congrArg _ (by unfold foldR; ring)

/-- The folded spelling on the extended reals is the same real. -/
theorem folded_ereal (x y z e cx cy zc mk : ℝ) (w : Fin 9 → ℝ) :
    (mk : EReal) * (((((x : EReal) * ((w 0 : EReal) + (w 4 : EReal)) + (y : EReal) * ((w 1 : EReal) + (w 5 : EReal)))
        + (z : EReal) * (w 2 : EReal)) + (e : EReal) * (w 3 : EReal))
      + (((cx : EReal) * ((w 6 : EReal) - (w 4 : EReal)) + (cy : EReal) * ((w 7 : EReal) - (w 5 : EReal)))
        + (zc : EReal) * (w 8 : EReal)))
      = ((foldR x y z e cx cy zc mk w : ℝ) : EReal) := by
  simp only [← EReal.coe_mul, ← EReal.coe_add, ← EReal.coe_sub]
  rfl

/-- The fold: the nine-term contraction equals the folded spelling, on the extended reals. -/
theorem concat_eq_folded (x y z e cx cy zc mk : ℝ) (w : Fin 9 → ℝ) :
    (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal))
      = (mk : EReal) * (((((x : EReal) * ((w 0 : EReal) + (w 4 : EReal)) + (y : EReal) * ((w 1 : EReal) + (w 5 : EReal)))
        + (z : EReal) * (w 2 : EReal)) + (e : EReal) * (w 3 : EReal))
      + (((cx : EReal) * ((w 6 : EReal) - (w 4 : EReal)) + (cy : EReal) * ((w 7 : EReal) - (w 5 : EReal)))
        + (zc : EReal) * (w 8 : EReal))) :=
  (concat_ereal x y z e cx cy zc mk w).trans (folded_ereal x y z e cx cy zc mk w).symm

/-- The folded value is a real. -/
theorem concat_isReal (x y z e cx cy zc mk : ℝ) (w : Fin 9 → ℝ) :
    IsReal (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal)) :=
  ⟨_, concat_ereal x y z e cx cy zc mk w⟩

end Cert.Lib.FeatureFold

end
-- ==== Proof.LibSumExchange.lean ====
/-
  Exchanging the order of a contraction over hidden features with a sum over edges, for real data.

  With real weights `dis`, real features `x` and a real matrix `W`, the two spellings

      ∑ over k of (dis[i] · ∑ over the edges e of x[γ e, k] · dis[γ e]) · W[k, c]
      (∑ over the edges e of (∑ over k of x[γ e, k] · W[k, c]) · dis[γ e]) · dis[i]

  are the same real number: every datum is the coercion of a real, coercion commutes with products and finite sums,
  and over the reals a constant factor distributes over a finite sum and two finite sums exchange.  The leading
  `0 +` in front of each sum over edges (the zero an accumulation starts from) is the identity.

  Also here: an extended real is a real exactly when it is neither infinity, and the reals are closed under
  `0 + ·`, `+`, `*`, `max`, finite sums and finite sums of products.
-/
import Idealize.ShloMosaic.PureOps.Ideal
import proofs.«164676_j40578851012868_2_alg».proof.Proof.LibFeatureFold

noncomputable section

namespace Cert.Sgc.SumExchange

open Cert.Lib.FeatureFold

/-! ### Extended reals that are neither infinity -/

/-- An extended real is the coercion of a real exactly when it is neither infinity. -/
theorem isReal_iff (a : EReal) : IsReal a ↔ a ≠ ⊥ ∧ a ≠ ⊤ := by
  constructor
  · rintro ⟨r, rfl⟩
    exact ⟨EReal.coe_ne_bot r, EReal.coe_ne_top r⟩
  · rintro ⟨hb, ht⟩
    exact ⟨a.toReal, (EReal.coe_toReal ht hb).symm⟩

/-- Zero is a real. -/
theorem real_zero : (0 : EReal) ≠ ⊥ ∧ (0 : EReal) ≠ ⊤ := (isReal_iff 0).mp isReal_zero

/-- The coercion of a real is a real. -/
theorem real_coe (r : ℝ) : (r : EReal) ≠ ⊥ ∧ (r : EReal) ≠ ⊤ := ⟨EReal.coe_ne_bot r, EReal.coe_ne_top r⟩

/-- `0 + r` is a real when `r` is. -/
theorem real_zero_add {r : EReal} (hr : r ≠ ⊥ ∧ r ≠ ⊤) : 0 + r ≠ ⊥ ∧ 0 + r ≠ ⊤ := by
  rw [zero_add]; exact hr

/-- The sum of two reals is a real. -/
theorem real_add {r s : EReal} (hr : r ≠ ⊥ ∧ r ≠ ⊤) (hs : s ≠ ⊥ ∧ s ≠ ⊤) : r + s ≠ ⊥ ∧ r + s ≠ ⊤ :=
  (isReal_iff _).mp (((isReal_iff r).mpr hr).add ((isReal_iff s).mpr hs))

/-- The product of two reals is a real. -/
theorem real_mul {r s : EReal} (hr : r ≠ ⊥ ∧ r ≠ ⊤) (hs : s ≠ ⊥ ∧ s ≠ ⊤) : r * s ≠ ⊥ ∧ r * s ≠ ⊤ :=
  (isReal_iff _).mp (((isReal_iff r).mpr hr).mul ((isReal_iff s).mpr hs))

/-- The maximum of two reals is a real. -/
theorem real_max {r s : EReal} (hr : r ≠ ⊥ ∧ r ≠ ⊤) (hs : s ≠ ⊥ ∧ s ≠ ⊤) : max r s ≠ ⊥ ∧ max r s ≠ ⊤ :=
  (isReal_iff _).mp (((isReal_iff r).mpr hr).max ((isReal_iff s).mpr hs))

/-- A finite sum of reals is a real. -/
theorem real_sum {ι : Type*} (s : Finset ι) (f : ι → EReal) (h : ∀ i ∈ s, f i ≠ ⊥ ∧ f i ≠ ⊤) :
    ∑ i ∈ s, f i ≠ ⊥ ∧ ∑ i ∈ s, f i ≠ ⊤ :=
  (isReal_iff _).mp (IsReal.sum s f fun i hi => (isReal_iff _).mpr (h i hi))

/-- A finite sum of products of reals is a real. -/
theorem real_sum_mul {ι : Type*} (s : Finset ι) (f g : ι → EReal) (hf : ∀ i ∈ s, f i ≠ ⊥ ∧ f i ≠ ⊤)
    (hg : ∀ i ∈ s, g i ≠ ⊥ ∧ g i ≠ ⊤) : ∑ i ∈ s, f i * g i ≠ ⊥ ∧ ∑ i ∈ s, f i * g i ≠ ⊤ :=
  real_sum s _ fun i hi => real_mul (hf i hi) (hg i hi)

/-! ### The exchange -/

/-- The exchange over the reals: a constant factor distributes over the sum over edges, and the sum over hidden
    features exchanges with it. -/
theorem exchange_real {N R H O : ℕ} (E : Finset (Fin R)) (γ : Fin R → Fin N) (d : Fin N → ℝ)
    (x : Fin N → Fin H → ℝ) (W : Fin H → Fin O → ℝ) (i : Fin N) (c : Fin O) :
    ∑ k : Fin H, (d i * ∑ e ∈ E, x (γ e) k * d (γ e)) * W k c
      = (∑ e ∈ E, (∑ k : Fin H, x (γ e) k * W k c) * d (γ e)) * d i := by
  simp only [Finset.mul_sum, Finset.sum_mul]
  rw [Finset.sum_comm]
  refine Finset.sum_congr rfl fun e _ => Finset.sum_congr rfl fun k _ => ?_
  ring

/-- THE EXCHANGE on the extended reals, every datum a real. -/
theorem layer2_exchange {N R H O : ℕ} (E : Finset (Fin R)) (γ : Fin R → Fin N) (dis : Fin N → EReal)
    (hdis : ∀ n, dis n ≠ ⊥ ∧ dis n ≠ ⊤)
    (x : Fin N → Fin H → EReal) (hx : ∀ n k, x n k ≠ ⊥ ∧ x n k ≠ ⊤)
    (W : Fin H → Fin O → EReal) (hW : ∀ k c, W k c ≠ ⊥ ∧ W k c ≠ ⊤) (i : Fin N) (c : Fin O) :
    ∑ k : Fin H, (dis i * (0 + ∑ e ∈ E, x (γ e) k * dis (γ e))) * W k c
      = (0 + ∑ e ∈ E, ((0 + ∑ k : Fin H, x (γ e) k * W k c) * dis (γ e))) * dis i := by
  choose d hd using fun n => (isReal_iff _).mpr (hdis n)
  choose xr hxr using fun n k => (isReal_iff _).mpr (hx n k)
  choose Wr hWr using fun k c => (isReal_iff _).mpr (hW k c)
  obtain rfl : dis = fun n => (d n : EReal) := funext hd
  obtain rfl : x = fun n k => (xr n k : EReal) := funext fun n => funext fun k => hxr n k
  obtain rfl : W = fun k c => (Wr k c : EReal) := funext fun k => funext fun c => hWr k c
  simp only [zero_add, ← EReal.coe_mul, ← coe_sum]
  exact congrArg _ (exchange_real E γ d xr Wr i c)

end Cert.Sgc.SumExchange

end
-- ==== Proof.Bridge.lean ====
/-
  The kernel program's result term and the reference's are one function of the argument arrays, entry by entry, when the
  float arguments hold real numbers.

  Write w for the node weights (nonnegative reals, whatever the edge list holds), E(i) for the edges whose destination reads
  i, and s(e) for the node an edge's source index reads (negative indices wrapped, then clamped into range).

  * One propagation of the reference, entry (i, f), is  w i · (0 + Σ_{e ∈ E(i)} h[s e, f] · w[s e])  for ANY features h: on
    the edges of E(i) the destination's weight is the constant w i, and a nonnegative real factor distributes over every
    finite sum of extended reals.
  * Hence the two hidden layers agree entry by entry with no assumption on the arguments: the kernel's first dense stage
    scales the same sum by w i from the right.
  * In the second layer the reference multiplies the propagated hidden layer by W2ᵀ, the kernel propagates the hidden layer
    already multiplied by W2ᵀ: an exchange of two finite sums and distributivity of arbitrary-sign factors, which hold because
    the hidden layer, W2 and the weights are reals.  That is where the arguments' finiteness is used.
-/
import proofs.«164676_j40578851012868_2_alg».proof.Proof.KernelTerm
import proofs.«164676_j40578851012868_2_alg».proof.Proof.RefTerm
import proofs.«164676_j40578851012868_2_alg».proof.Proof.LibSegmentScale
import proofs.«164676_j40578851012868_2_alg».proof.Proof.LibDense
import proofs.«164676_j40578851012868_2_alg».proof.Proof.LibScatterEdges
import proofs.«164676_j40578851012868_2_alg».proof.Proof.LibSumExchange
import Idealize.ShloMosaic.Lib.ValueLayout

noncomputable section

namespace Cert.Sgc.Bridge

open Idealize.ShloMosaic Idealize.ShloMosaic.ValueIdx Cert.LibGcnAggregate Cert.Sgc.SumExchange

variable [Cert.KernelIdeal.Facts] [Cert.ReferenceIdeal.Facts]

open Cert.KernelIdeal (S50000x128 S2x800000 S128x128 S128 S40x128 S40 S50000x40 S850000 S850000x1 S50000 S50000x1 S128x40)

/-! ## The graph's data -/

/-- The node weights. -/
abbrev wt (ei : IVec S2x800000 32) : FVec Ideal S50000 .f32 := Cert.KernelIdeal.Term.weight ei

/-- The destinations as the sums over the edges read them. -/
abbrev dst (ei : IVec S2x800000 32) : IVec S850000x1 32 := Cert.KernelIdeal.Term.writeAt (Cert.KernelIdeal.Term.dests ei)

/-- The sources as every row read uses them. -/
abbrev srcCol (ei : IVec S2x800000 32) : IVec S850000x1 32 := Cert.KernelIdeal.Term.readAt (Cert.KernelIdeal.Term.sources ei)

section AnySize

variable {N R C : ℕ}

/-- The edges whose index, read signed, is node `i`. -/
abbrev edgesOf (idx : IVec ⟨2, ![R, 1]⟩ 32) (i : Fin N) : Finset (Fin R) :=
  Finset.univ.filter fun e : Fin R => (idx (ix2 e (0 : Fin 1))).toInt = (i.val : ℤ)

/-- The node an edge's index reads when a row is read at it: read signed, clamped into range. -/
abbrev nodeOf (hN : 0 < N) (colw : IVec ⟨2, ![R, 1]⟩ 32) (e : Fin R) : Fin N :=
  ⟨min (colw (ix2 e (0 : Fin 1))).toInt.toNat (N - 1), by omega⟩

/-- A sum over the edges of gathered rows into zeros, entry `(i, f)`: the sum over the edges ending at `i` of the source
    rows' entries. -/
theorem edge_sum_any (hN : 0 < N) (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (hb0 : (⟨0, ![]⟩ : Shape).BroadcastsInDim ⟨2, ![N, C]⟩ ![])
    (idx colw : IVec ⟨2, ![R, 1]⟩ 32) (h : (⟨2, ![N, C]⟩ : Shape).Idx → EReal) (i : Fin N) (f : Fin C) :
    Host.scatterAdd (F := Ideal) (rowsScatter N C R wfs)
        (broadcastInDim ⟨2, ![N, C]⟩ ![] hb0 (constant ⟨0, ![]⟩ .f32 0x00000000#32)) idx
        (Host.gather (Idealize.ShloMosaic.RowGather.rowsDims N C R wfg) h colw) (ix2 i f)
      = 0 + ∑ e ∈ edgesOf idx i, h (ix2 (nodeOf hN colw e) f) := by
  have hzero : (broadcastInDim ⟨2, ![N, C]⟩ ![] hb0 (constant (F := Ideal) ⟨0, ![]⟩ .f32 0x00000000#32))
      = fun _ => (0 : EReal) := funext fun _ => Ideal.ofBits_zero_f32
  rw [hzero]
  show Ideal.hostScatterAdd (rowsScatter N C R wfs) (fun _ => 0) _ _ (ix2 i f) = _
  rw [Cert.Sgc.ScatterEdges.scatter_rows_entry]
  refine congrArg (0 + ·) (Finset.sum_congr rfl fun e _ => ?_)
  exact Idealize.ShloMosaic.RowGather.gather_rows_apply hN wfg h colw e f

end AnySize

/-- The edges whose destination reads node `i`. -/
abbrev edgesAt (ei : IVec S2x800000 32) (i : Fin 50000) : Finset (Fin 850000) :=
  edgesOf (N := 50000) (R := 850000) (dst ei) i

/-- The node an edge's source index reads. -/
abbrev src (ei : IVec S2x800000 32) (e : Fin 850000) : Fin 50000 :=
  nodeOf (N := 50000) (R := 850000) (by omega) (srcCol ei) e

/-- The weights are nonnegative reals. -/
theorem wt_weight (ei : IVec S2x800000 32) (i : S50000.Idx) : 0 ≤ wt ei i ∧ wt ei i ≠ ⊤ :=
  guarded_rsqrt_weight (Cert.KernelIdeal.Term.degree ei) _ (fun _ => Ideal.ofBits_zero_f32) i

theorem wt_real (ei : IVec S2x800000 32) (i : S50000.Idx) : wt ei i ≠ ⊥ ∧ wt ei i ≠ ⊤ :=
  ⟨fun h => by have := (wt_weight ei i).1; rw [h] at this; exact absurd this (by simp), (wt_weight ei i).2⟩

/-- On an edge whose destination reads node `i`, the destination index as a row read uses it reads `i` too. -/
theorem read_dest (ei : IVec S2x800000 32) (e : Fin 850000) (i : Fin 50000)
    (h : (Cert.KernelIdeal.Term.dests ei (ix1 e)).toInt = (i.val : ℤ)) :
    (Cert.KernelIdeal.Term.readAt (Cert.KernelIdeal.Term.dests ei) (ix2 e (0 : Fin 1))).toInt = (i.val : ℤ) := by
  unfold Cert.KernelIdeal.Term.readAt
  rw [broadcastInDim_a_a1_apply _ _ e 0]
  show (Scalar.select (BitVec.ofBool ((Cert.KernelIdeal.Term.dests ei (ix1 e)).slt 0#32)) _
    (Cert.KernelIdeal.Term.dests ei (ix1 e))).toInt = _
  have hns : (Cert.KernelIdeal.Term.dests ei (ix1 e)).slt 0#32 = false := by
    rw [BitVec.slt_eq_decide, BitVec.toInt_zero, h]
    exact decide_eq_false (by omega)
  rw [hns]
  exact h

/-! ## Sums over the edges -/

/-- The same at this graph's sizes. -/
theorem edge_sum {C : ℕ} (wfs : ScatterDims.WF ⟨2, ![50000, C]⟩ ⟨2, ![850000, 1]⟩ ⟨2, ![850000, C]⟩ [1] [0] [0] 1)
    (wfg : GatherDims.WF ⟨2, ![50000, C]⟩ ⟨2, ![850000, 1]⟩ ⟨2, ![850000, C]⟩ [1] [0] [] [0] [] 1 ![1, C])
    (hb0 : (⟨0, ![]⟩ : Shape).BroadcastsInDim ⟨2, ![50000, C]⟩ ![])
    (ei : IVec S2x800000 32) (h : (⟨2, ![50000, C]⟩ : Shape).Idx → EReal) (i : Fin 50000) (f : Fin C) :
    Host.scatterAdd (F := Ideal) (rowsScatter 50000 C 850000 wfs)
        (broadcastInDim ⟨2, ![50000, C]⟩ ![] hb0 (constant ⟨0, ![]⟩ .f32 0x00000000#32)) (dst ei)
        (Host.gather (Idealize.ShloMosaic.RowGather.rowsDims 50000 C 850000 wfg) h (srcCol ei)) (ix2 i f)
      = 0 + ∑ e ∈ edgesAt ei i, h (ix2 (src ei e) f) :=
  edge_sum_any (N := 50000) (R := 850000) (by omega) wfs wfg hb0 (dst ei) (srcCol ei) h i f

/-- The kernel's first sum over the edges, entry `(i, f)`. -/
theorem firstSum_apply (x : FVec Ideal S50000x128 .f32) (ei : IVec S2x800000 32) (i : Fin 50000) (f : Fin 128) :
    Cert.KernelIdeal.Term.firstSum x ei (ix2 i f)
      = 0 + ∑ e ∈ edgesAt ei i, x (ix2 (src ei e) f) * wt ei (ix1 (src ei e)) := by
  have hx : (mulf x (broadcastInDim S50000x128 ![0, 1] Cert.KernelIdeal.Facts₀.bcast_S50000x1_S50000x128_0_1
      (Cert.KernelIdeal.Term.weightColumn ei))) = fun j => x j * wt ei (ix1 (j 0)) := by
    funext j
    obtain ⟨p, q, rfl⟩ : ∃ (p : Fin 50000) (q : Fin 128), j = ix2 p q := ⟨j 0, j 1, eq_ix2 j⟩
    show x (ix2 p q) * _ = _
    unfold Cert.KernelIdeal.Term.weightColumn
    rw [column_apply]
  unfold Cert.KernelIdeal.Term.firstSum
  rw [hx]
  exact edge_sum Cert.KernelIdeal.Facts₀.scatter_S50000x128_S850000x1_S850000x128_1_0_0_1_wf
    Cert.KernelIdeal.Facts₀.gather_S50000x128_S850000x1_S850000x128_1_0_n_n_0_1_1128_wf
    Cert.KernelIdeal.Facts₀.bcast_S_S50000x128 ei (fun j => x j * wt ei (ix1 (j 0))) i f

/-- One propagation of the reference, entry `(i, f)`, for any features. -/
theorem propagate_apply (ei : IVec S2x800000 32) (h : FVec Ideal S50000x128 .f32) (i : Fin 50000) (f : Fin 128) :
    Cert.ReferenceIdeal.Term.propagate (F := Ideal) ei h (ix2 i f)
      = wt ei (ix1 i) * (0 + ∑ e ∈ edgesAt ei i, h (ix2 (src ei e) f) * wt ei (ix1 (src ei e))) := by
  refine (Cert.LibSegmentScale.segment_law (N := 50000) (C := 128) (R := 850000) (by omega)
    Cert.ReferenceIdeal.Facts₀.scatter_S50000x128_S850000x1_S850000x128_1_0_0_1_wf
    Cert.ReferenceIdeal.Facts₀.gather_S50000x128_S850000x1_S850000x128_1_0_n_n_0_1_1128_wf
    Cert.ReferenceIdeal.Facts₀.gather_S50000_S850000x1_S850000_n_0_n_n_0_1_1_wf
    Cert.ReferenceIdeal.Facts₀.bcast_S_S50000x128 Cert.ReferenceIdeal.Facts₀.bcast_S850000_S850000x1_0
    Cert.ReferenceIdeal.Facts₀.bcast_S850000x1_S850000x128_0_1
    (wt ei) (wt_weight ei) (Cert.KernelIdeal.Term.dests ei) (srcCol ei)
    (Cert.KernelIdeal.Term.readAt (Cert.KernelIdeal.Term.dests ei)) (read_dest ei) h i f).trans ?_
  refine congrArg (wt ei (ix1 i) * ·) ?_
  exact edge_sum Cert.ReferenceIdeal.Facts₀.scatter_S50000x128_S850000x1_S850000x128_1_0_0_1_wf
    Cert.ReferenceIdeal.Facts₀.gather_S50000x128_S850000x1_S850000x128_1_0_n_n_0_1_1128_wf
    Cert.ReferenceIdeal.Facts₀.bcast_S_S50000x128 ei (fun j => h j * wt ei (ix1 (j 0))) i f

/-! ## The hidden layer -/

/-- The first matrix transposed, entry `(k, q)`. -/
theorem matrix1_apply (W1 : FVec Ideal S128x128 .f32) (k q : Fin 128) :
    transpose S128x128 [1, 0] W1 Cert.KernelIdeal.Facts₀.transposes_S128x128_S128x128_1_0 (ix2 k q) = W1 (ix2 q k) :=
  transpose_ix2_apply W1 _ k q

/-- The second matrix transposed, entry `(k, q)`. -/
theorem matrix2_apply (W2 : FVec Ideal S40x128 .f32) (k : Fin 128) (q : Fin 40) :
    transpose S128x40 [1, 0] W2 Cert.KernelIdeal.Facts₀.transposes_S40x128_S128x40_1_0 (ix2 k q) = W2 (ix2 q k) :=
  transpose_ix2_apply W2 _ k q

/-- The kernel's hidden layer, entry `(n, q)`. -/
theorem hiddenK_apply (x : FVec Ideal S50000x128 .f32) (ei : IVec S2x800000 32) (W1 : FVec Ideal S128x128 .f32)
    (b1 : FVec Ideal S128 .f32) (n : Fin 50000) (q : Fin 128) :
    Cert.KernelIdeal.Term.hidden x ei W1 b1 (ix2 n q)
      = max (∑ k : Fin 128, ((0 + ∑ e ∈ edgesAt ei n, x (ix2 (src ei e) k) * wt ei (ix1 (src ei e))) * wt ei (ix1 n))
          * W1 (ix2 q k) + b1 (ix1 q)) (Ideal.ofBits .f32 0x00000000#32) := by
  unfold Cert.KernelIdeal.Term.hidden
  rw [Cert.Sgc.Dense.scaledAffineClamp_apply]
  have hc : Cert.KernelIdeal.Term.weightColumn ei (ix2 n (0 : Fin 1)) = wt ei (ix1 n) := by
    unfold Cert.KernelIdeal.Term.weightColumn
    exact broadcastInDim_a_a1_apply _ _ n 0
  rw [hc]
  refine congrArg₂ max (congrArg₂ (· + ·) (Finset.sum_congr rfl fun k _ => ?_) rfl) rfl
  rw [firstSum_apply, transpose_ix2_apply]

/-- The two hidden layers are one array. -/
theorem hidden_eq (x : FVec Ideal S50000x128 .f32) (ei : IVec S2x800000 32) (W1 : FVec Ideal S128x128 .f32)
    (b1 : FVec Ideal S128 .f32) :
    Cert.ReferenceIdeal.Term.hidden (F := Ideal) x ei W1 b1 = Cert.KernelIdeal.Term.hidden x ei W1 b1 := by
  funext j
  obtain ⟨n, q, rfl⟩ : ∃ (n : Fin 50000) (q : Fin 128), j = ix2 n q := ⟨j 0, j 1, eq_ix2 j⟩
  rw [hiddenK_apply]
  unfold Cert.ReferenceIdeal.Term.hidden
  rw [Cert.LibDense.host_dense_apply Cert.ReferenceIdeal.dot_S50000x128_S128x128_S50000x128_1_0_0_1_n_n
    Cert.ReferenceIdeal.Facts₀.dot_S50000x128_S128x128_S50000x128_1_0_0_1_n_n_wf rfl]
  refine congrArg₂ max (congrArg₂ (· + ·) (Finset.sum_congr rfl fun k _ => ?_) rfl) rfl
  rw [propagate_apply, transpose_ix2_apply, mul_comm (wt ei (ix1 n))]

/-- The hidden layer holds reals when the features, the first matrix and the first bias do. -/
theorem hidden_real (x : FVec Ideal S50000x128 .f32) (ei : IVec S2x800000 32) (W1 : FVec Ideal S128x128 .f32)
    (b1 : FVec Ideal S128 .f32) (hx : ∀ j, x j ≠ ⊥ ∧ x j ≠ ⊤) (hW1 : ∀ j, W1 j ≠ ⊥ ∧ W1 j ≠ ⊤)
    (hb1 : ∀ j, b1 j ≠ ⊥ ∧ b1 j ≠ ⊤) (n : Fin 50000) (q : Fin 128) :
    Cert.KernelIdeal.Term.hidden x ei W1 b1 (ix2 n q) ≠ ⊥ ∧ Cert.KernelIdeal.Term.hidden x ei W1 b1 (ix2 n q) ≠ ⊤ := by
  rw [hiddenK_apply]
  refine real_max (real_add (real_sum_mul _ _ _ (fun k _ => ?_) (fun k _ => hW1 _)) (hb1 _)) ?_
  · exact real_mul (real_zero_add (real_sum_mul _ _ _ (fun e _ => hx _) (fun e _ => wt_real ei _))) (wt_real ei _)
  · rw [Ideal.ofBits_zero_f32]; exact real_zero

/-! ## The results -/

section AnyEdges

variable {N R H : ℕ}

/-- The second layer at one entry, over any set of edges: the product with a column `w` of the second matrix of the
    propagated hidden layer is the propagated product, when the weights, the hidden layer and the column are reals. -/
theorem second_layer_entry (E : Finset (Fin R)) (γ : Fin R → Fin N) (d : Fin N → EReal) (hd : ∀ n, d n ≠ ⊥ ∧ d n ≠ ⊤)
    (y : Fin N → Fin H → EReal) (hy : ∀ n k, y n k ≠ ⊥ ∧ y n k ≠ ⊤) (w : Fin H → EReal) (hw : ∀ k, w k ≠ ⊥ ∧ w k ≠ ⊤)
    (i : Fin N) :
    ∑ k : Fin H, (d i * (0 + ∑ e ∈ E, y (γ e) k * d (γ e))) * w k
      = (0 + ∑ e ∈ E, (∑ k : Fin H, y (γ e) k * w k) * d (γ e)) * d i := by
  have h := layer2_exchange (O := 1) E γ d hd y hy (fun k _ => w k) (fun k _ => hw k) i 0
  simp only [zero_add] at h ⊢
  exact h

end AnyEdges

/-- The reference's result, entry `(i, c)`: the product with the second matrix of the propagated hidden layer, plus the
    bias. -/
theorem ref_entry (x : FVec Ideal S50000x128 .f32) (ei : IVec S2x800000 32) (W1 : FVec Ideal S128x128 .f32)
    (b1 : FVec Ideal S128 .f32) (W2 : FVec Ideal S40x128 .f32) (b2 : FVec Ideal S40 .f32) (i : Fin 50000) (c : Fin 40) :
    Cert.ReferenceIdeal.Term.result (F := Ideal) x ei W1 b1 W2 b2 (ix2 i c)
      = (∑ k : Fin 128, (wt ei (ix1 i) * (0 + ∑ e ∈ edgesAt ei i,
            Cert.KernelIdeal.Term.hidden x ei W1 b1 (ix2 (src ei e) k) * wt ei (ix1 (src ei e)))) * W2 (ix2 c k))
          + b2 (ix1 c) := by
  unfold Cert.ReferenceIdeal.Term.result
  rw [hidden_eq]
  refine (addf_apply _ _ _).trans ?_
  rw [Cert.LibRowMax.broadcastInDim_1b_ab_apply, Cert.LibRowMax.broadcastInDim_b_1b_apply]
  refine congrArg (· + b2 (ix1 c)) ?_
  refine (Cert.LibRowMax.dotGeneral_plain_apply
    Cert.ReferenceIdeal.Facts₀.dot_S50000x128_S128x40_S50000x40_1_0_0_1_n_n_wf none _
    (Cert.ReferenceIdeal.Term.propagate (F := Ideal) ei (Cert.KernelIdeal.Term.hidden x ei W1 b1))
    (transpose Cert.ReferenceIdeal.S128x40 [1, 0] W2 Cert.ReferenceIdeal.Facts₀.transposes_S40x128_S128x40_1_0) i c).trans ?_
  refine Finset.sum_congr rfl fun k _ => ?_
  rw [propagate_apply, transpose_ix2_apply]

/-- The kernel program's result, entry `(i, c)`: the sum over the edges of the projected hidden layer, scaled, plus the
    bias. -/
theorem ker_entry (x : FVec Ideal S50000x128 .f32) (ei : IVec S2x800000 32) (W1 : FVec Ideal S128x128 .f32)
    (b1 : FVec Ideal S128 .f32) (W2 : FVec Ideal S40x128 .f32) (b2 : FVec Ideal S40 .f32) (i : Fin 50000) (c : Fin 40) :
    Cert.KernelIdeal.Term.result x ei W1 b1 W2 b2 (ix2 i c)
      = (0 + ∑ e ∈ edgesAt ei i, (∑ k : Fin 128, Cert.KernelIdeal.Term.hidden x ei W1 b1 (ix2 (src ei e) k) * W2 (ix2 c k))
            * wt ei (ix1 (src ei e))) * wt ei (ix1 i) + b2 (ix1 c) := by
  have hc : ∀ n : Fin 50000, Cert.KernelIdeal.Term.weightColumn ei (ix2 n (0 : Fin 1)) = wt ei (ix1 n) := fun n => by
    unfold Cert.KernelIdeal.Term.weightColumn
    exact broadcastInDim_a_a1_apply _ _ n 0
  unfold Cert.KernelIdeal.Term.result
  refine (addf_apply _ _ _).trans ?_
  rw [Cert.LibRowMax.broadcastInDim_1b_ab_apply, Cert.LibRowMax.broadcastInDim_b_1b_apply]
  refine congrArg (· + b2 (ix1 c)) ?_
  refine (mulf_apply _ _ _).trans ?_
  rw [Cert.LibRowMax.broadcastInDim_a1_ab_apply, hc]
  refine congrArg (· * wt ei (ix1 i)) ?_
  unfold Cert.KernelIdeal.Term.secondSum
  refine (edge_sum Cert.KernelIdeal.Facts₀.scatter_S50000x40_S850000x1_S850000x40_1_0_0_1_wf
    Cert.KernelIdeal.Facts₀.gather_S50000x40_S850000x1_S850000x40_1_0_n_n_0_1_140_wf
    Cert.KernelIdeal.Facts₀.bcast_S_S50000x40 ei _ i c).trans ?_
  refine congrArg (0 + ·) (Finset.sum_congr rfl fun e _ => ?_)
  unfold Cert.KernelIdeal.Term.projected
  rw [Cert.Sgc.Dense.productScaled_apply, hc]
  refine congrArg (· * wt ei (ix1 (src ei e))) (Finset.sum_congr rfl fun k _ => ?_)
  rw [transpose_ix2_apply]

/-- The reference's result term is the kernel program's, when the features, both matrices and the first bias hold reals. -/
theorem result_eq (x : FVec Ideal S50000x128 .f32) (ei : IVec S2x800000 32) (W1 : FVec Ideal S128x128 .f32)
    (b1 : FVec Ideal S128 .f32) (W2 : FVec Ideal S40x128 .f32) (b2 : FVec Ideal S40 .f32)
    (hx : ∀ j, x j ≠ ⊥ ∧ x j ≠ ⊤) (hW1 : ∀ j, W1 j ≠ ⊥ ∧ W1 j ≠ ⊤) (hb1 : ∀ j, b1 j ≠ ⊥ ∧ b1 j ≠ ⊤)
    (hW2 : ∀ j, W2 j ≠ ⊥ ∧ W2 j ≠ ⊤) :
    Cert.ReferenceIdeal.Term.result (F := Ideal) x ei W1 b1 W2 b2 = Cert.KernelIdeal.Term.result x ei W1 b1 W2 b2 := by
  funext j
  obtain ⟨i, c, rfl⟩ : ∃ (i : Fin 50000) (c : Fin 40), j = ix2 i c := ⟨j 0, j 1, eq_ix2 j⟩
  rw [ref_entry, ker_entry]
  refine congrArg (· + b2 (ix1 c)) ?_
  have hy : ∀ (n : Fin 50000) (k : Fin 128), Cert.KernelIdeal.Term.hidden x ei W1 b1 (ix2 n k) ≠ ⊥
      ∧ Cert.KernelIdeal.Term.hidden x ei W1 b1 (ix2 n k) ≠ ⊤ := hidden_real x ei W1 b1 hx hW1 hb1
  have hd : ∀ n : Fin 50000, wt ei (ix1 n) ≠ ⊥ ∧ wt ei (ix1 n) ≠ ⊤ := fun n => wt_real ei _
  have hw : ∀ k : Fin 128, W2 (ix2 c k) ≠ ⊥ ∧ W2 (ix2 c k) ≠ ⊤ := fun k => hW2 _
  -- nothing below depends on which edges end at the node, which node an edge starts at, or what the arrays hold
  generalize edgesAt ei i = E
  generalize src ei = γ
  exact second_layer_entry E γ (fun n => wt ei (ix1 n)) hd
    (fun n k => Cert.KernelIdeal.Term.hidden x ei W1 b1 (ix2 n k)) hy (fun k => W2 (ix2 c k)) hw i

end Cert.Sgc.Bridge

end
-- ==== Proof.FiniteInputs.lean ====
/-
  From the precondition to "every entry of every float argument is a real".

  The precondition is the conjunction, over the five float arguments, of `all(|x| < +∞)`: each is a reduction by
  `and` of the array of comparisons `|x[j]| < +∞` over every axis, started from `1`, and the five results are joined by
  `and`.  The claim's hypothesis says the joined bit is `1`.  A conjunction that is `1` has both operands `1`; a
  reduction by `and` over every axis that is `1` met a `1` at every index; and at the ideal instance, where floats are
  extended reals, `|x| = max x (-x)` and the word `0x7F800000` denotes `⊤`, so `|x| < +∞` says that `x` is neither
  infinity: `max x (-x) < ⊤` gives `x < ⊤` and `-x < ⊤`, and `-⊥ = ⊤`.
-/
import proofs.«164676_j40578851012868_2_alg».proof.Defs
import Idealize.ShloMosaic.Lib.ReduceAll
import Idealize.ShloMosaic.Lib.ValueIdx

noncomputable section

namespace Cert.Sgc.FiniteInputs

open Idealize.ShloMosaic Idealize.ShloMosaic.ValueIdx Idealize.SL.Sem Cert.Pre_finite_inputs

/-- The scalar shape has one index. -/
instance : Subsingleton S_.Idx := ⟨fun _ _ => funext fun d => d.elim0⟩

/-- At the ideal instance `|x| < +∞` says that `x` is a real. -/
theorem real_of_abs_lt_inf (x : EReal)
    (h : Ideal.cmp .olt (max x (-x)) (Ideal.ofBits .f32 0x7F800000#32) = 1#1) : x ≠ ⊥ ∧ x ≠ ⊤ := by
  have htop : Ideal.ofBits .f32 0x7F800000#32 = ⊤ := by simp [Ideal.ofBits, Ideal.ieee]
  rw [htop] at h
  have h' : BitVec.ofBool (decide (max x (-x) < ⊤)) = 1#1 := h
  have hlt : max x (-x) < ⊤ := by
    by_contra hn
    rw [decide_eq_false hn] at h'
    exact absurd h' (by decide)
  rw [max_lt_iff] at hlt
  refine ⟨?_, ne_of_lt hlt.1⟩
  intro hb
  rw [hb, EReal.neg_bot] at hlt
  exact absurd hlt.2 (lt_irrefl _)

/-- Every entry of an array of extended reals is a real (neither infinity). -/
abbrev AllReal {s : Shape} (a : FVec Ideal s .f32) : Prop := ∀ j, a j ≠ ⊥ ∧ a j ≠ ⊤

/-- `all(|x| < +∞)` is `1` at the ideal instance: every entry of `x` is a real. -/
theorem all_abs_lt_inf {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant S_ .f32 0x7F800000#32)))
        (constantI S_ 1 1#1) hr hu ix0 = 1#1) (j : s.Idx) : x j ≠ ⊥ ∧ x j ≠ ⊤ :=
  real_of_abs_lt_inf (x j) (Host.reduce_andi_all _ _ hr hu ix0 e j)

/-- The printed predicate all ones: every entry of each of its five float arguments is a real. -/
theorem finite_of_fn [Cert.Pre_finite_inputs.Facts]
    (a0 : FVec Ideal S50000x128 .f32) (a1 : IVec S2x800000 32) (a2 : FVec Ideal S128x128 .f32)
    (a3 : FVec Ideal S128 .f32) (a4 : FVec Ideal S40x128 .f32) (a5 : FVec Ideal S40 .f32)
    (h : Cert.Pre_finite_inputs.fn (F := Ideal) a0 a1 a2 a3 a4 a5 = fun _ => 1#1) :
    AllReal a0 ∧ AllReal a2 ∧ AllReal a3 ∧ AllReal a4 ∧ AllReal a5 := by
  have h0 := congrFun h ix0
  dsimp only [Cert.Pre_finite_inputs.fn, Cert.Pre_finite_inputs.fn_part1] at h0
  obtain ⟨h1234, e5⟩ := IntOp.andi_eq_one.1 h0
  obtain ⟨h123, e4⟩ := IntOp.andi_eq_one.1 h1234
  obtain ⟨h12, e3⟩ := IntOp.andi_eq_one.1 h123
  obtain ⟨e0, e2⟩ := IntOp.andi_eq_one.1 h12
  exact ⟨all_abs_lt_inf a0 _ _ _ e0, all_abs_lt_inf a2 _ _ _ e2, all_abs_lt_inf a3 _ _ _ e3,
    all_abs_lt_inf a4 _ _ _ e4, all_abs_lt_inf a5 _ _ _ e5⟩

/-- THE PRECONDITION READ BACK: on every device, every entry of each float argument of the program is a real. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (s := S50000x128) (m ((c.tc : Thread Cert.KernelIdeal.nD Cert.KernelIdeal.τ).loc Cert.KernelIdeal.main_arg0))
      ∧ AllReal (s := S128x128) (m ((c.tc : Thread Cert.KernelIdeal.nD Cert.KernelIdeal.τ).loc Cert.KernelIdeal.main_arg2))
      ∧ AllReal (s := S128) (m ((c.tc : Thread Cert.KernelIdeal.nD Cert.KernelIdeal.τ).loc Cert.KernelIdeal.main_arg3))
      ∧ AllReal (s := S40x128) (m ((c.tc : Thread Cert.KernelIdeal.nD Cert.KernelIdeal.τ).loc Cert.KernelIdeal.main_arg4))
      ∧ AllReal (s := S40) (m ((c.tc : Thread Cert.KernelIdeal.nD Cert.KernelIdeal.τ).loc Cert.KernelIdeal.main_arg5)) :=
  finite_of_fn _ _ _ _ _ _ (h c)

end Cert.Sgc.FiniteInputs

end
-- ==== Proof.Claims.lean ====
/-
  The five claims.

  The two kernel programs run, faultless, with their arguments unchanged: their tiled regions and host lines as segments.
  The reference runs with its arguments unchanged and its result at the reference's term.  The idealized kernel program runs
  with its result at the kernel program's term.  Under the precondition every float argument holds reals, and then the two
  terms are one function of the arguments: the per-edge weights of the reference factor into a scaling of the features before
  they are gathered and a scaling of the sums afterwards, and in the second layer the product with the second matrix moves
  inside the sum over the edges.
-/
import proofs.«164676_j40578851012868_2_alg».proof.Defs
import proofs.«164676_j40578851012868_2_alg».proof.Proof.Gen.Kernel.Frame
import proofs.«164676_j40578851012868_2_alg».proof.Proof.KernelRun
import proofs.«164676_j40578851012868_2_alg».proof.Proof.KernelValue
import proofs.«164676_j40578851012868_2_alg».proof.Proof.RefRun
import proofs.«164676_j40578851012868_2_alg».proof.Proof.Bridge
import proofs.«164676_j40578851012868_2_alg».proof.Proof.FiniteInputs
import proofs.«164676_j40578851012868_2_alg».proof.Proof.Gen.Pre_finite_inputs

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HandRun.run m ρ)

theorem preserves : Cert.preserves_Kernel_KernelIdeal := trivial

/-- From memories agreeing on the arguments both idealized programs end with equal results. -/
theorem algebraic : Cert.algebraic_KernelIdeal_ReferenceIdeal := by
  intro m ρ m' ρ' hpre hagree
  refine ⟨fun c => Cert.KernelIdeal.Term.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result_eq m ρ c), (h c).2⟩)
      (Cert.KernelIdeal.WholeRun.run_result (F := Ideal) m ρ)
  · refine (θ_run Cert.ReferenceIdeal.defs _ _).mono (fun r h c => ⟨(h c).1.trans ?_, (h c).2⟩)
      (Cert.ReferenceIdeal.HandRun.run m' ρ')
    rw [(hagree c).1, (hagree c).2.1, (hagree c).2.2.1, (hagree c).2.2.2.1, (hagree c).2.2.2.2.1, (hagree c).2.2.2.2.2]
    obtain ⟨h0, h2, h3, h4, h5⟩ := Cert.Sgc.FiniteInputs.finite_of_pre m hpre c
    exact Cert.Sgc.Bridge.result_eq _ _ _ _ _ _ h0 h2 h3 h4

end Cert.Proof.Claims

end
-- ==== Proof.lean ====
/-
  The certificate: the kernel program (two tiled linear regions among gathers and sums over the edges of a graph) and its
  reference (two graph-convolution layers written edge by edge) compute one function over the extended reals when every float
  argument is finite.  The five claims are proved in Proof/Claims.lean; this file gathers them under the witnesses of the
  programs' stated side conditions.
-/
import proofs.«164676_j40578851012868_2_alg».proof.Defs
import proofs.«164676_j40578851012868_2_alg».proof.Proof.Gen.Kernel
import proofs.«164676_j40578851012868_2_alg».proof.Proof.Gen.KernelIdeal
import proofs.«164676_j40578851012868_2_alg».proof.Proof.Gen.ReferenceIdeal
import proofs.«164676_j40578851012868_2_alg».proof.Proof.Gen.Pre_finite_inputs
import proofs.«164676_j40578851012868_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
